-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S38x128 : Shape := ⟨2, ![38, 128]⟩
abbrev S512x640 : Shape := ⟨2, ![512, 640]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S38 : Shape := ⟨1, ![38]⟩
abbrev S_ : Shape := ⟨0, ![]⟩

class Facts : Prop where
  bcast_S_S38x128 : S_.BroadcastsInDim S38x128 (![] : Fin 0 → Fin S38x128.rank)
  reducesTo_S38x128_S_d0_1 : S38x128.ReducesTo [0, 1] S_
  h_S_ : 0 < S_.numel
  bcast_S_S512x640 : S_.BroadcastsInDim S512x640 (![] : Fin 0 → Fin S512x640.rank)
  reducesTo_S512x640_S_d0_1 : S512x640.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S38 : S_.BroadcastsInDim S38 (![] : Fin 0 → Fin S38.rank)
  reducesTo_S38_S_d0 : S38.ReducesTo [0] S_

variable [Facts]

def fn_part2 {F : FTy → Type} [FloatOps F] (main_arg8 : FVec F S38x128 .f32) (main_arg9 : FVec F S38 .f32) (main_v33 : IVec S_ 1) : IVec S_ 1 :=
  let main_v34 : FVec F S38x128 .f32 := Host.absf main_arg8
  let main_cst_12 : FVec F S_ .f32 := constant S_ .f32 0x7F800000#32
  let main_v35 : FVec F S38x128 .f32 := broadcastInDim S38x128 ![] bcast_S_S38x128 main_cst_12
  let main_v36 : IVec S38x128 1 := cmpf .olt main_v34 main_v35
  let main_c_13 : IVec S_ 1 := constantI S_ 1 1#1
  let main_v37 : IVec S_ 1 := (fun x v => Host.reduce IntOp.andi x v reducesTo_S38x128_S_d0_1 h_S_) main_v36 main_c_13
  let main_v38 : IVec S_ 1 := andi main_v33 main_v37
  let main_v39 : FVec F S38 .f32 := Host.absf main_arg9
  let main_cst_14 : FVec F S_ .f32 := constant S_ .f32 0x7F800000#32
  let main_v40 : FVec F S38 .f32 := broadcastInDim S38 ![] bcast_S_S38 main_cst_14
  let main_v41 : IVec S38 1 := cmpf .olt main_v39 main_v40
  let main_c_15 : IVec S_ 1 := constantI S_ 1 1#1
  let main_v42 : IVec S_ 1 := (fun x v => Host.reduce IntOp.andi x v reducesTo_S38_S_d0 h_S_) main_v41 main_c_15
  let main_v43 : IVec S_ 1 := andi main_v38 main_v42
  main_v43

def fn_part1 {F : FTy → Type} [FloatOps F] (main_arg5 : FVec F S256 .f32) (main_arg6 : FVec F S128x256 .f32) (main_arg7 : FVec F S128 .f32) (main_arg8 : FVec F S38x128 .f32) (main_arg9 : FVec F S38 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : IVec S64x1024 32) (main_arg1 : FVec F S38x128 .f32) (main_arg2 : FVec F S512x640 .f32) (main_arg3 : FVec F S512 .f32) (main_arg4 : FVec F S256x512 .f32) (main_arg5 : FVec F S256 .f32) (main_arg6 : FVec F S128x256 .f32) (main_arg7 : FVec F S128 .f32) (main_arg8 : FVec F S38x128 .f32) (main_arg9 : FVec F S38 .f32) : IVec S_ 1 :=
  let main_v0 : FVec F S38x128 .f32 := Host.absf main_arg1
  let main_cst : FVec F S_ .f32 := constant S_ .f32 0x7F800000#32
  let main_v1 : FVec F S38x128 .f32 := broadcastInDim S38x128 ![] bcast_S_S38x128 main_cst
  let main_v2 : IVec S38x128 1 := cmpf .olt main_v0 main_v1
  let main_c : IVec S_ 1 := constantI S_ 1 1#1
  let main_v3 : IVec S_ 1 := (fun x v => Host.reduce IntOp.andi x v reducesTo_S38x128_S_d0_1 h_S_) main_v2 main_c
  let main_v4 : FVec F S512x640 .f32 := Host.absf main_arg2
  let main_cst_0 : FVec F S_ .f32 := constant S_ .f32 0x7F800000#32
  let main_v5 : FVec F S512x640 .f32 := broadcastInDim S512x640 ![] bcast_S_S512x640 main_cst_0
  let main_v6 : IVec S512x640 1 := cmpf .olt main_v4 main_v5
  let main_c_1 : IVec S_ 1 := constantI S_ 1 1#1
  let main_v7 : IVec S_ 1 := (fun x v => Host.reduce IntOp.andi x v reducesTo_S512x640_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg5 main_arg6 main_arg7 main_arg8 main_arg9 main_v13 main_v16
-- ==== Kernel.lean ====
abbrev S64x1024 : Shape := ⟨2, ![64, 1024]⟩
abbrev S38x128 : Shape := ⟨2, ![38, 128]⟩
abbrev S512x640 : Shape := ⟨2, ![512, 640]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S38 : Shape := ⟨1, ![38]⟩
abbrev S_ : Shape := ⟨0, ![]⟩
abbrev S64x1024x1 : Shape := ⟨3, ![64, 1024, 1]⟩
abbrev S64x1024x128 : Shape := ⟨3, ![64, 1024, 128]⟩
abbrev S64x1028x128 : Shape := ⟨3, ![64, 1028, 128]⟩
abbrev S640x512 : Shape := ⟨2, ![640, 512]⟩
abbrev S512x256 : Shape := ⟨2, ![512, 256]⟩
abbrev S256x128 : Shape := ⟨2, ![256, 128]⟩
abbrev S128x38 : Shape := ⟨2, ![128, 38]⟩
abbrev S128x128 : Shape := ⟨2, ![128, 128]⟩
abbrev S1x512 : Shape := ⟨2, ![1, 512]⟩
abbrev S1x256 : Shape := ⟨2, ![1, 256]⟩
abbrev S1x128 : Shape := ⟨2, ![1, 128]⟩
abbrev S2x1028x128 : Shape := ⟨3, ![2, 1028, 128]⟩
abbrev S2x1024x128 : Shape := ⟨3, ![2, 1024, 128]⟩
abbrev S2048x640 : Shape := ⟨2, ![2048, 640]⟩
abbrev S1x1024x128 : Shape := ⟨3, ![1, 1024, 128]⟩
abbrev S1024x128 : Shape := ⟨2, ![1024, 128]⟩
abbrev S2048x512 : Shape := ⟨2, ![2048, 512]⟩
abbrev S2048x256 : Shape := ⟨2, ![2048, 256]⟩
abbrev S2048x128 : Shape := ⟨2, ![2048, 128]⟩
abbrev S64x1024x38 : Shape := ⟨3, ![64, 1024, 38]⟩

abbrev nBuf : Space → Nat
  | .hbm => 43
  | .vmem => 13
  | .smem => 0
  | _ => 0

abbrev bufTy : (tb : Table) → Fin (tcTables nBuf tb) → BufTy
  | .hbm, ⟨0, _⟩ => ⟨S64x1024, .i32⟩
  | .hbm, ⟨1, _⟩ => ⟨S38x128, .f32⟩
  | .hbm, ⟨2, _⟩ => ⟨S512x640, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S38x128, .f32⟩
  | .hbm, ⟨9, _⟩ => ⟨S38, .f32⟩
  | .hbm, ⟨10, _⟩ => ⟨S_, .i32⟩
  | .hbm, ⟨11, _⟩ => ⟨S64x1024, .i32⟩
  | .hbm, ⟨12, _⟩ => ⟨S64x1024, .i1⟩
  | .hbm, ⟨13, _⟩ => ⟨S_, .i32⟩
  | .hbm, ⟨14, _⟩ => ⟨S64x1024, .i32⟩
  | .hbm, ⟨15, _⟩ => ⟨S64x1024, .i32⟩
  | .hbm, ⟨16, _⟩ => ⟨S64x1024, .i32⟩
  | .hbm, ⟨17, _⟩ => ⟨S64x1024x1, .i32⟩
  | .hbm, ⟨18, _⟩ => ⟨S64x1024x128, .f32⟩
  | .hbm, ⟨19, _⟩ => ⟨S_, .i32⟩
  | .hbm, ⟨20, _⟩ => ⟨S_, .f32⟩
  | .hbm, ⟨21, _⟩ => ⟨S64x1028x128, .f32⟩
  | .hbm, ⟨22, _⟩ => ⟨S64x1028x128, .bf16⟩
  | .hbm, ⟨23, _⟩ => ⟨S640x512, .f32⟩
  | .hbm, ⟨24, _⟩ => ⟨S640x512, .bf16⟩
  | .hbm, ⟨25, _⟩ => ⟨S512x256, .f32⟩
  | .hbm, ⟨26, _⟩ => ⟨S512x256, .bf16⟩
  | .hbm, ⟨27, _⟩ => ⟨S256x128, .f32⟩
  | .hbm, ⟨28, _⟩ => ⟨S256x128, .bf16⟩
  | .hbm, ⟨29, _⟩ => ⟨S128x38, .f32⟩
  | .hbm, ⟨30, _⟩ => ⟨S_, .i32⟩
  | .hbm, ⟨31, _⟩ => ⟨S_, .f32⟩
  | .hbm, ⟨32, _⟩ => ⟨S128x128, .f32⟩
  | .hbm, ⟨33, _⟩ => ⟨S128x128, .bf16⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x512, .f32⟩
  | .hbm, ⟨38, _⟩ => ⟨S1x256, .f32⟩
  | .hbm, ⟨39, _⟩ => ⟨S1x128, .f32⟩
  | .hbm, ⟨40, _⟩ => ⟨S1x128, .f32⟩
  | .hbm, ⟨41, _⟩ => ⟨S64x1024x128, .f32⟩
  | .hbm, ⟨42, _⟩ => ⟨S64x1024x38, .f32⟩
  | .local _ .vmem, ⟨0, _⟩ => ⟨S2x1028x128, .bf16⟩
  | .local _ .vmem, ⟨1, _⟩ => ⟨S2x1028x128, .bf16⟩
  | .local _ .vmem, ⟨2, _⟩ => ⟨S640x512, .bf16⟩
  | .local _ .vmem, ⟨3, _⟩ => ⟨S1x512, .f32⟩
  | .local _ .vmem, ⟨4, _⟩ => ⟨S512x256, .bf16⟩
  | .local _ .vmem, ⟨5, _⟩ => ⟨S1x256, .f32⟩
  | .local _ .vmem, ⟨6, _⟩ => ⟨S256x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S2x1024x128, .f32⟩
  | .local _ .vmem, ⟨11, _⟩ => ⟨S2x1024x128, .f32⟩
  | .local _ .vmem, ⟨12, _⟩ => ⟨S2048x640, .bf16⟩
  | _, _ => ⟨S64x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_call2_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1028x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  pads_S64x1024x128_S64x1028x128_000_220_000 : S64x1024x128.Pads (![0, 2, 0] : Fin 3 → Nat) ![0, 2, 0] ![0, 0, 0] S64x1028x128
  h_S_ : 0 < S_.numel
  bitsLt_bf16_f32 : FTy.bits .bf16 < FTy.bits .f32
  transposes_S512x640_S640x512_1_0 : S512x640.Transposes [1, 0] S640x512
  transposes_S256x512_S512x256_1_0 : S256x512.Transposes [1, 0] S512x256
  transposes_S128x256_S256x128_1_0 : S128x256.Transposes [1, 0] S256x128
  transposes_S38x128_S128x38_1_0 : S38x128.Transposes [1, 0] S128x38
  pads_S128x38_S128x128_000_0900 : S128x38.Pads (![0, 0] : Fin 2 → Nat) ![0, 90] ![0, 0] S128x128
  pads_S38_S128_0900 : S38.Pads (![0] : Fin 1 → Nat) ![90] ![0] S128
  shapeCasts_S512_S1x512 : S512.ShapeCasts S1x512
  shapeCasts_S256_S1x256 : S256.ShapeCasts S1x256
  shapeCasts_S128_S1x128 : S128.ShapeCasts S1x128
  inb_S2x1028x128_S1x1024x128_0_0_0 : ∀ a, (![0, 0, 0] : Fin 3 → Nat) a + S1x1024x128.size a ≤ S2x1028x128.size a
  h_S1x1024x128 : 0 < S1x1024x128.numel
  shapeCasts_S1x1024x128_S1024x128 : S1x1024x128.ShapeCasts S1024x128
  inb_S2048x640_S1024x128_0_0 : ∀ a, (![0, 0] : Fin 2 → Nat) a + S1024x128.size a ≤ S2048x640.size a
  h_S1024x128 : 0 < S1024x128.numel
  shapeCasts_S1024x128_S1024x128 : S1024x128.ShapeCasts S1024x128
  packedbf16_S2048x640_S1024x128_0_0 : (Rect.unit (s := S2048x640) ![0, 0] S1024x128.size inb_S2048x640_S1024x128_0_0).PackedRows (EltTy.packing .bf16)
  inb_S2x1028x128_S1x1024x128_0_1_0 : ∀ a, (![0, 1, 0] : Fin 3 → Nat) a + S1x1024x128.size a ≤ S2x1028x128.size a
  inb_S2048x640_S1024x128_0_128 : ∀ a, (![0, 128] : Fin 2 → Nat) a + S1024x128.size a ≤ S2048x640.size a
  packedbf16_S2048x640_S1024x128_0_128 : (Rect.unit (s := S2048x640) ![0, 128] S1024x128.size inb_S2048x640_S1024x128_0_128).PackedRows (EltTy.packing .bf16)
  inb_S2x1028x128_S1x1024x128_0_2_0 : ∀ a, (![0, 2, 0] : Fin 3 → Nat) a + S1x1024x128.size a ≤ S2x1028x128.size a
  inb_S2048x640_S1024x128_0_256 : ∀ a, (![0, 256] : Fin 2 → Nat) a + S1024x128.size a ≤ S2048x640.size a
  packedbf16_S2048x640_S1024x128_0_256 : (Rect.unit (s := S2048x640) ![0, 256] S1024x128.size inb_S2048x640_S1024x128_0_256).PackedRows (EltTy.packing .bf16)
  inb_S2x1028x128_S1x1024x128_0_3_0 : ∀ a, (![0, 3, 0] : Fin 3 → Nat) a + S1x1024x128.size a ≤ S2x1028x128.size a
  inb_S2048x640_S1024x128_0_384 : ∀ a, (![0, 384] : Fin 2 → Nat) a + S1024x128.size a ≤ S2048x640.size a
  packedbf16_S2048x640_S1024x128_0_384 : (Rect.unit (s := S2048x640) ![0, 384] S1024x128.size inb_S2048x640_S1024x128_0_384).PackedRows (EltTy.packing .bf16)
  inb_S2x1028x128_S1x1024x128_0_4_0 : ∀ a, (![0, 4, 0] : Fin 3 → Nat) a + S1x1024x128.size a ≤ S2x1028x128.size a
  inb_S2048x640_S1024x128_0_512 : ∀ a, (![0, 512] : Fin 2 → Nat) a + S1024x128.size a ≤ S2048x640.size a
  packedbf16_S2048x640_S1024x128_0_512 : (Rect.unit (s := S2048x640) ![0, 512] S1024x128.size inb_S2048x640_S1024x128_0_512).PackedRows (EltTy.packing .bf16)
  inb_S2x1028x128_S1x1024x128_1_0_0 : ∀ a, (![1, 0, 0] : Fin 3 → Nat) a + S1x1024x128.size a ≤ S2x1028x128.size a
  inb_S2048x640_S1024x128_1024_0 : ∀ a, (![1024, 0] : Fin 2 → Nat) a + S1024x128.size a ≤ S2048x640.size a
  packedbf16_S2048x640_S1024x128_1024_0 : (Rect.unit (s := S2048x640) ![1024, 0] S1024x128.size inb_S2048x640_S1024x128_1024_0).PackedRows (EltTy.packing .bf16)
  inb_S2x1028x128_S1x1024x128_1_1_0 : ∀ a, (![1, 1, 0] : Fin 3 → Nat) a + S1x1024x128.size a ≤ S2x1028x128.size a
  inb_S2048x640_S1024x128_1024_128 : ∀ a, (![1024, 128] : Fin 2 → Nat) a + S1024x128.size a ≤ S2048x640.size a
  packedbf16_S2048x640_S1024x128_1024_128 : (Rect.unit (s := S2048x640) ![1024, 128] S1024x128.size inb_S2048x640_S1024x128_1024_128).PackedRows (EltTy.packing .bf16)
  inb_S2x1028x128_S1x1024x128_1_2_0 : ∀ a, (![1, 2, 0] : Fin 3 → Nat) a + S1x1024x128.size a ≤ S2x1028x128.size a
  inb_S2048x640_S1024x128_1024_256 : ∀ a, (![1024, 256] : Fin 2 → Nat) a + S1024x128.size a ≤ S2048x640.size a
  packedbf16_S2048x640_S1024x128_1024_256 : (Rect.unit (s := S2048x640) ![1024, 256] S1024x128.size inb_S2048x640_S1024x128_1024_256).PackedRows (EltTy.packing .bf16)
  inb_S2x1028x128_S1x1024x128_1_3_0 : ∀ a, (![1, 3, 0] : Fin 3 → Nat) a + S1x1024x128.size a ≤ S2x1028x128.size a
  inb_S2048x640_S1024x128_1024_384 : ∀ a, (![1024, 384] : Fin 2 → Nat) a + S1024x128.size a ≤ S2048x640.size a
  packedbf16_S2048x640_S1024x128_1024_384 : (Rect.unit (s := S2048x640) ![1024, 384] S1024x128.size inb_S2048x640_S1024x128_1024_384).PackedRows (EltTy.packing .bf16)
  inb_S2x1028x128_S1x1024x128_1_4_0 : ∀ a, (![1, 4, 0] : Fin 3 → Nat) a + S1x1024x128.size a ≤ S2x1028x128.size a
  inb_S2048x640_S1024x128_1024_512 : ∀ a, (![1024, 512] : Fin 2 → Nat) a + S1024x128.size a ≤ S2048x640.size a
  packedbf16_S2048x640_S1024x128_1024_512 : (Rect.unit (s := S2048x640) ![1024, 512] S1024x128.size inb_S2048x640_S1024x128_1024_512).PackedRows (EltTy.packing .bf16)
  inb_S2048x640_S2048x640_0_0 : ∀ a, (![0, 0] : Fin 2 → Nat) a + S2048x640.size a ≤ S2048x640.size a
  h_S2048x640 : 0 < S2048x640.numel
  inb_S640x512_S640x512_0_0 : ∀ a, (![0, 0] : Fin 2 → Nat) a + S640x512.size a ≤ S640x512.size a
  h_S640x512 : 0 < S640x512.numel
  shapeCasts_S640x512_S640x512 : S640x512.ShapeCasts S640x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2048x128_o0_0_S1024x128 : S2048x128.Slices ![0, 0] S1024x128
  inb_S2x1024x128_S1x1024x128_0_0_0 : ∀ a, (![0, 0, 0] : Fin 3 → Nat) a + S1x1024x128.size a ≤ S2x1024x128.size a
  shapeCasts_S1024x128_S1x1024x128 : S1024x128.ShapeCasts S1x1024x128
  slices_S2048x128_o1024_0_S1024x128 : S2048x128.Slices ![1024, 0] S1024x128
  inb_S2x1024x128_S1x1024x128_1_0_0 : ∀ a, (![1, 0, 0] : Fin 3 → Nat) a + S1x1024x128.size a ≤ S2x1024x128.size a
  slices_S64x1024x128_S64x1024x38_0_0_0 : S64x1024x128.Slices ![0, 0, 0] S64x1024x38
  gather_S38x128_S64x1024x1_S64x1024x128_2_0_n_n_0_2_1128_wf : GatherDims.WF S38x128 S64x1024x1 S64x1024x128 [2] [0] [] [0] [] 2 ![1, 128]
  dot_S2048x640_S640x512_S2048x512_1_0_0_1_n_n_wf : DotDims.WF S2048x640 S640x512 S2048x512 [1] [0] [0] [1] [] []
  dot_S2048x512_S512x256_S2048x256_1_0_0_1_n_n_wf : DotDims.WF S2048x512 S512x256 S2048x256 [1] [0] [0] [1] [] []
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1028x128.size a ≤ S64x1028x128.size a
  hwx0_0 : ∀ i : grid0.Coords, EltTy.bits .bf16 = 32 ∨ (Rect.block (s := S64x1028x128) S2x1028x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x512.size a ≤ S640x512.size a
  hwx0_1 : ∀ i : grid0.Coords, EltTy.bits .bf16 = 32 ∨ (Rect.block (s := S640x512) S640x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x1024x128.size a ≤ S64x1024x128.size a
  hwx0_9 : ∀ i : grid0.Coords, EltTy.bits .f32 = 32 ∨ (Rect.block (s := S64x1024x128) S2x1024x128.size (cc0_transform_9 i) (hinb0_9 i)).WholeWords (EltTy.packing .f32)

variable [Facts₀]

def gather_S38x128_S64x1024x1_S64x1024x128_2_0_n_n_0_2_1128 : GatherDims S38x128 S64x1024x1 S64x1024x128 where
  offsetDims := [2]
  collapsedSliceDims := [0]
  operandBatchingDims := []
  startIndicesBatchingDims := []
  startIndexMap := [0]
  indexVectorDim := 2
  sliceSizes := ![1, 128]
  wf := gather_S38x128_S64x1024x1_S64x1024x128_2_0_n_n_0_2_1128_wf
def dot_S2048x640_S640x512_S2048x512_1_0_0_1_n_n : DotDims S2048x640 S640x512 S2048x512 where
  lhsContracting := [1]
  rhsContracting := [0]
  lhsNonContracting := [0]
  rhsNonContracting := [1]
  lhsBatch := []
  rhsBatch := []
  wf := dot_S2048x640_S640x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v8) S2x1028x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S640x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S2x1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x1024 : Shape := ⟨2, ![64, 1024]⟩
abbrev S38x128 : Shape := ⟨2, ![38, 128]⟩
abbrev S512x640 : Shape := ⟨2, ![512, 640]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S38 : Shape := ⟨1, ![38]⟩
abbrev S_ : Shape := ⟨0, ![]⟩
abbrev S64x1024x1 : Shape := ⟨3, ![64, 1024, 1]⟩
abbrev S64x1024x128 : Shape := ⟨3, ![64, 1024, 128]⟩
abbrev S64x1028x128 : Shape := ⟨3, ![64, 1028, 128]⟩
abbrev S64x1024x640 : Shape := ⟨3, ![64, 1024, 640]⟩
abbrev S65536x640 : Shape := ⟨2, ![65536, 640]⟩
abbrev S640x512 : Shape := ⟨2, ![640, 512]⟩
abbrev S65536x512 : Shape := ⟨2, ![65536, 512]⟩
abbrev S1x512 : Shape := ⟨2, ![1, 512]⟩
abbrev S512x256 : Shape := ⟨2, ![512, 256]⟩
abbrev S65536x256 : Shape := ⟨2, ![65536, 256]⟩
abbrev S1x256 : Shape := ⟨2, ![1, 256]⟩
abbrev S256x128 : Shape := ⟨2, ![256, 128]⟩
abbrev S65536x128 : Shape := ⟨2, ![65536, 128]⟩
abbrev S1x128 : Shape := ⟨2, ![1, 128]⟩
abbrev S128x38 : Shape := ⟨2, ![128, 38]⟩
abbrev S65536x38 : Shape := ⟨2, ![65536, 38]⟩
abbrev S1x38 : Shape := ⟨2, ![1, 38]⟩
abbrev S64x1024x38 : Shape := ⟨3, ![64, 1024, 38]⟩

abbrev nBuf : Space → Nat
  | .hbm => 59
  | .vmem => 0
  | .smem => 0
  | _ => 0

abbrev bufTy : (tb : Table) → Fin (tcTables nBuf tb) → BufTy
  | .hbm, ⟨0, _⟩ => ⟨S64x1024, .i32⟩
  | .hbm, ⟨1, _⟩ => ⟨S38x128, .f32⟩
  | .hbm, ⟨2, _⟩ => ⟨S512x640, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S38x128, .f32⟩
  | .hbm, ⟨9, _⟩ => ⟨S38, .f32⟩
  | .hbm, ⟨10, _⟩ => ⟨S_, .i32⟩
  | .hbm, ⟨11, _⟩ => ⟨S64x1024, .i32⟩
  | .hbm, ⟨12, _⟩ => ⟨S64x1024, .i1⟩
  | .hbm, ⟨13, _⟩ => ⟨S_, .i32⟩
  | .hbm, ⟨14, _⟩ => ⟨S64x1024, .i32⟩
  | .hbm, ⟨15, _⟩ => ⟨S64x1024, .i32⟩
  | .hbm, ⟨16, _⟩ => ⟨S64x1024, .i32⟩
  | .hbm, ⟨17, _⟩ => ⟨S64x1024x1, .i32⟩
  | .hbm, ⟨18, _⟩ => ⟨S64x1024x128, .f32⟩
  | .hbm, ⟨19, _⟩ => ⟨S_, .i32⟩
  | .hbm, ⟨20, _⟩ => ⟨S_, .f32⟩
  | .hbm, ⟨21, _⟩ => ⟨S64x1028x128, .f32⟩
  | .hbm, ⟨22, _⟩ => ⟨S64x1024x128, .f32⟩
  | .hbm, ⟨23, _⟩ => ⟨S64x1024x128, .f32⟩
  | .hbm, ⟨24, _⟩ => ⟨S64x1024x128, .f32⟩
  | .hbm, ⟨25, _⟩ => ⟨S64x1024x128, .f32⟩
  | .hbm, ⟨26, _⟩ => ⟨S64x1024x128, .f32⟩
  | .hbm, ⟨27, _⟩ => ⟨S64x1024x640, .f32⟩
  | .hbm, ⟨28, _⟩ => ⟨S65536x640, .f32⟩
  | .hbm, ⟨29, _⟩ => ⟨S640x512, .f32⟩
  | .hbm, ⟨30, _⟩ => ⟨S65536x512, .f32⟩
  | .hbm, ⟨31, _⟩ => ⟨S1x512, .f32⟩
  | .hbm, ⟨32, _⟩ => ⟨S65536x512, .f32⟩
  | .hbm, ⟨33, _⟩ => ⟨S65536x512, .f32⟩
  | .hbm, ⟨34, _⟩ => ⟨S_, .f32⟩
  | .hbm, ⟨35, _⟩ => ⟨S65536x512, .f32⟩
  | .hbm, ⟨36, _⟩ => ⟨S65536x512, .f32⟩
  | .hbm, ⟨37, _⟩ => ⟨S512x256, .f32⟩
  | .hbm, ⟨38, _⟩ => ⟨S65536x256, .f32⟩
  | .hbm, ⟨39, _⟩ => ⟨S1x256, .f32⟩
  | .hbm, ⟨40, _⟩ => ⟨S65536x256, .f32⟩
  | .hbm, ⟨41, _⟩ => ⟨S65536x256, .f32⟩
  | .hbm, ⟨42, _⟩ => ⟨S_, .f32⟩
  | .hbm, ⟨43, _⟩ => ⟨S65536x256, .f32⟩
  | .hbm, ⟨44, _⟩ => ⟨S65536x256, .f32⟩
  | .hbm, ⟨45, _⟩ => ⟨S256x128, .f32⟩
  | .hbm, ⟨46, _⟩ => ⟨S65536x128, .f32⟩
  | .hbm, ⟨47, _⟩ => ⟨S1x128, .f32⟩
  | .hbm, ⟨48, _⟩ => ⟨S65536x128, .f32⟩
  | .hbm, ⟨49, _⟩ => ⟨S65536x128, .f32⟩
  | .hbm, ⟨50, _⟩ => ⟨S_, .f32⟩
  | .hbm, ⟨51, _⟩ => ⟨S65536x128, .f32⟩
  | .hbm, ⟨52, _⟩ => ⟨S65536x128, .f32⟩
  | .hbm, ⟨53, _⟩ => ⟨S128x38, .f32⟩
  | .hbm, ⟨54, _⟩ => ⟨S65536x38, .f32⟩
  | .hbm, ⟨55, _⟩ => ⟨S1x38, .f32⟩
  | .hbm, ⟨56, _⟩ => ⟨S65536x38, .f32⟩
  | .hbm, ⟨57, _⟩ => ⟨S65536x38, .f32⟩
  | .hbm, ⟨58, _⟩ => ⟨S64x1024x38, .f32⟩
  | _, _ => ⟨S64x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call1_cst : Ref sig .tc := ⟨.hbm, 34, rfl⟩
abbrev main_call1_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call2_cst : Ref sig .tc := ⟨.hbm, 42, rfl⟩
abbrev main_call2_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call3_cst : Ref sig .tc := ⟨.hbm, 50, rfl⟩
abbrev main_call3_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]

class Facts₀ : Prop where
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  pads_S64x1024x128_S64x1028x128_000_220_000 : S64x1024x128.Pads (![0, 2, 0] : Fin 3 → Nat) ![0, 2, 0] ![0, 0, 0] S64x1028x128
  h_S_ : 0 < S_.numel
  slices_S64x1028x128_S64x1024x128_0_0_0 : S64x1028x128.Slices ![0, 0, 0] S64x1024x128
  slices_S64x1028x128_S64x1024x128_0_1_0 : S64x1028x128.Slices ![0, 1, 0] S64x1024x128
  slices_S64x1028x128_S64x1024x128_0_2_0 : S64x1028x128.Slices ![0, 2, 0] S64x1024x128
  slices_S64x1028x128_S64x1024x128_0_3_0 : S64x1028x128.Slices ![0, 3, 0] S64x1024x128
  slices_S64x1028x128_S64x1024x128_0_4_0 : S64x1028x128.Slices ![0, 4, 0] S64x1024x128
  concatenates_S64x1024x128_S64x1024x128_S64x1024x128_S64x1024x128_S64x1024x128_S64x1024x640_d2 : Shape.Concatenates [S64x1024x128, S64x1024x128, S64x1024x128, S64x1024x128, S64x1024x128] S64x1024x640 2
  shapeCasts_S64x1024x640_S65536x640 : S64x1024x640.ShapeCasts S65536x640
  transposes_S512x640_S640x512_1_0 : S512x640.Transposes [1, 0] S640x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  transposes_S256x512_S512x256_1_0 : S256x512.Transposes [1, 0] S512x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  transposes_S128x256_S256x128_1_0 : S128x256.Transposes [1, 0] S256x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  transposes_S38x128_S128x38_1_0 : S38x128.Transposes [1, 0] S128x38
  bcast_S38_S1x38_1 : S38.BroadcastsInDim S1x38 (![1] : Fin 1 → Fin S1x38.rank)
  bcast_S1x38_S65536x38_0_1 : S1x38.BroadcastsInDim S65536x38 (![0, 1] : Fin 2 → Fin S65536x38.rank)
  shapeCasts_S65536x38_S64x1024x38 : S65536x38.ShapeCasts S64x1024x38
  gather_S38x128_S64x1024x1_S64x1024x128_2_0_n_n_0_2_1128_wf : GatherDims.WF S38x128 S64x1024x1 S64x1024x128 [2] [0] [] [0] [] 2 ![1, 128]
  dot_S65536x640_S640x512_S65536x512_1_0_0_1_n_n_wf : DotDims.WF S65536x640 S640x512 S65536x512 [1] [0] [0] [1] [] []
  dot_S65536x512_S512x256_S65536x256_1_0_0_1_n_n_wf : DotDims.WF S65536x512 S512x256 S65536x256 [1] [0] [0] [1] [] []
  dot_S65536x256_S256x128_S65536x128_1_0_0_1_n_n_wf : DotDims.WF S65536x256 S256x128 S65536x128 [1] [0] [0] [1] [] []
  dot_S65536x128_S128x38_S65536x38_1_0_0_1_n_n_wf : DotDims.WF S65536x128 S128x38 S65536x38 [1] [0] [0] [1] [] []

variable [Facts₀]

def gather_S38x128_S64x1024x1_S64x1024x128_2_0_n_n_0_2_1128 : GatherDims S38x128 S64x1024x1 S64x1024x128 where
  offsetDims := [2]
  collapsedSliceDims := [0]
  operandBatchingDims := []
  startIndicesBatchingDims := []
  startIndexMap := [0]
  indexVectorDim := 2
  sliceSizes := ![1, 128]
  wf := gather_S38x128_S64x1024x1_S64x1024x128_2_0_n_n_0_2_1128_wf
def dot_S65536x640_S640x512_S65536x512_1_0_0_1_n_n : DotDims S65536x640 S640x512 S65536x512 where
  lhsContracting := [1]
  rhsContracting := [0]
  lhsNonContracting := [0]
  rhsNonContracting := [1]
  lhsBatch := []
  rhsBatch := []
  wf := dot_S65536x640_S640x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x38_S65536x38_1_0_0_1_n_n : DotDims S65536x128 S128x38 S65536x38 where
  lhsContracting := [1]
  rhsContracting := [0]
  lhsNonContracting := [0]
  rhsNonContracting := [1]
  lhsBatch := []
  rhsBatch := []
  wf := dot_S65536x128_S128x38_S65536x38_1_0_0_1_n_n_wf

class Facts : Prop extends Facts₀ where

variable [Facts]
-- ==== Proof.KernelPiece.lean ====
/-
  What one grid point of the kernel leaves in its output block, as a function of the blocks it was given.

  The body first builds a slab of shape `[2048, 640]` in a scratch buffer from its input block `x0` of shape
  `[2, 1028, 128]` (two batch rows of padded embedded tokens): ten stores, one per batch row `r` and shift `i`,
  each putting `x0 (r, i + s, e)` at `(1024·r + s, 128·i + e)`. Read back whole, the slab at `(ρ, k)` is
  `x0 (ρ / 1024, ρ % 1024 + k / 128, k % 128)` (`slab`): row `ρ` is the five padded positions seen by position
  `ρ % 1024` of batch row `ρ / 1024`, side by side.
  It then computes a `[2048, 128]` array from the slab and the eight parameter blocks (`body`: the printed
  arithmetic, not opened here) and stores its rows `0…1023` and `1024…2047` as the two batch rows of the output
  block: the block at `(r, s, n)` is `body (1024·r + s, n)` (`blockOut`).
-/
import proofs.«124656_j6622839570978_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Piece

open Idealize.ShloMosaic Idealize.ShloMosaic.TcCoe Idealize.SL.Sem Idealize.ShloMosaic.ValueIdx
open Cert.KernelIdeal Cert.KernelIdeal.Gen

variable {F : FTy → Type} [FloatOps F]

/-- Where slab entry `(ρ, k)` sits in the input block. -/
def slabIdx (j : S2048x640.Idx) : S2x1028x128.Idx :=
  ix3 (n0 := 2) (n1 := 1028) (n2 := 128) ⟨(j 0).val / 1024, by have h : (j 0).val < 2048 := (j 0).isLt; omega⟩
    ⟨(j 0).val % 1024 + (j 1).val / 128, by have h : (j 1).val < 640 := (j 1).isLt; omega⟩ ⟨(j 1).val % 128, by omega⟩

/-- The context slab of an input block. -/
def slab (x0 : Vec F S2x1028x128 .bf16) : Vec F S2048x640 .bf16 := fun j => x0 (slabIdx j)

/-- The body's arithmetic: the `[2048, 128]` array it computes from the slab and the parameter blocks. -/
def body (x0 : Vec F S2x1028x128 .bf16) (x1 : Vec F S640x512 .bf16) (x2 : Vec F S1x512 .f32) (x3 : Vec F S512x256 .bf16)
    (x4 : Vec F S1x256 .f32) (x5 : Vec F S256x128 .bf16) (x6 : Vec F S1x128 .f32) (x7 : Vec F S128x128 .bf16)
    (x8 : Vec F S1x128 .f32) : FVec F S2048x128 .f32 :=
  k0_pay14 (k0_pay13 (slab x0) x1) x2 x3 x4 x5 x6 x7 x8

/-- Row `1024·r + s` of a `[2048, 128]` array laid out as `(r, s)`. -/
def unflat (v : FVec F S2048x128 .f32) : Vec F S2x1024x128 .f32 :=
  fun y => v (ix2 (n0 := 2048) (n1 := 128) ⟨(y 0).val * 1024 + (y 1).val, by
    have h0 : (y 0).val < 2 := (y 0).isLt; have h1 : (y 1).val < 1024 := (y 1).isLt; omega⟩ (y 2))

/-- The output block one point leaves. -/
def blockOut (x0 : Vec F S2x1028x128 .bf16) (x1 : Vec F S640x512 .bf16) (x2 : Vec F S1x512 .f32) (x3 : Vec F S512x256 .bf16)
    (x4 : Vec F S1x256 .f32) (x5 : Vec F S256x128 .bf16) (x6 : Vec F S1x128 .f32) (x7 : Vec F S128x128 .bf16)
    (x8 : Vec F S1x128 .f32) : Vec F S2x1024x128 .f32 :=
  unflat (body x0 x1 x2 x3 x4 x5 x6 x7 x8)

theorem hz2 : (![0, 0] : Fin 2 → Nat) = fun _ => 0 := funext fun a => by fin_cases a <;> rfl

/-- One slab store: the `[1024, 128]` piece loaded from `x0` at `(r, i, 0)`, stored at `(1024·r, 128·i)`, is the
    slab there. -/
theorem piece_slab (x0 : Vec F S2x1028x128 .bf16) (r i : Nat) (hr : r < 2) (hi : i < 5)
    (off1 : Fin 3 → Nat) (e10 : off1 0 = r) (e11 : off1 1 = i) (e12 : off1 2 = 0)
    (inb1 : ∀ a, off1 a + S1x1024x128.size a ≤ S2x1028x128.size a)
    (off11 : Fin 2 → Nat) (e110 : off11 0 = r * 1024) (e111 : off11 1 = i * 128)
    (inb11 : ∀ a, off11 a + S1024x128.size a ≤ S2048x640.size a)
    (h1 : S1x1024x128.ShapeCasts S1024x128) (h2 : S1024x128.ShapeCasts S1024x128)
    (x : (Rect.unit (s := S2048x640) off11 S1024x128.size inb11).shape.Idx) :
    shapeCast S1024x128 (shapeCast S1024x128 (View.ld x0 (Rect.unit (s := S2x1028x128) off1 S1x1024x128.size inb1)) h1) h2 x
      = slab x0 ((Rect.unit (s := S2048x640) off11 S1024x128.size inb11).emb x) := by
  have hx0 : (x 0).val < 1024 := (x 0).isLt
  have hx1 : (x 1).val < 128 := (x 1).isLt
  rw [shapeCast_self]
  refine (shapeCast_apply _ h1 x (ix3 (n0 := 1) (n1 := 1024) (n2 := 128) ⟨0, Nat.one_pos⟩ ⟨(x 0).val, hx0⟩ ⟨(x 1).val, hx1⟩) ?_).trans ?_
  · rewrite [Shape.rowMajor_val_three, Shape.rowMajor_val_two]
    show (0 * 1024 + (x 0).val) * 128 + (x 1).val = (x 0).val * 128 + (x 1).val
    omega
  · show x0 _ = x0 _
    refine congrArg x0 (funext fun a => Fin.ext ?_)
    match a with
    | ⟨0, _⟩ =>
      show off1 0 + 1 * 0 = (off11 0 + 1 * (x 0).val) / 1024
      rw [e10, e110]; omega
    | ⟨1, _⟩ =>
      show off1 1 + 1 * (x 0).val = (off11 0 + 1 * (x 0).val) % 1024 + (off11 1 + 1 * (x 1).val) / 128
      rw [e11, e110, e111]; omega
    | ⟨2, _⟩ =>
      show off1 2 + 1 * (x 1).val = (off11 1 + 1 * (x 1).val) % 128
      rw [e12, e111]; omega

/-- One output store: rows `1024·r …` of the body's result, cut out and given a leading unit axis, stored at batch
    row `r` of the block, are the block's entries there. -/
theorem piece_out (v : FVec F S2048x128 .f32) (r : Nat) (hr : r < 2)
    (offs : Fin 2 → Nat) (f0 : offs 0 = r * 1024) (f1 : offs 1 = 0) (hs : S2048x128.Slices offs S1024x128)
    (hc : S1024x128.ShapeCasts S1x1024x128)
    (off : Fin 3 → Nat) (e0 : off 0 = r) (e1 : off 1 = 0) (e2 : off 2 = 0)
    (inb : ∀ a, off a + S1x1024x128.size a ≤ S2x1024x128.size a)
    (x : (Rect.unit (s := S2x1024x128) off S1x1024x128.size inb).shape.Idx) :
    shapeCast S1x1024x128 (extractStridedSlice S1024x128 offs v hs) hc x
      = unflat v ((Rect.unit (s := S2x1024x128) off S1x1024x128.size inb).emb x) := by
  have hx0 : (x 0).val < 1 := (x 0).isLt
  have hx1 : (x 1).val < 1024 := (x 1).isLt
  have hx2 : (x 2).val < 128 := (x 2).isLt
  refine (shapeCast_apply _ hc x (ix2 (n0 := 1024) (n1 := 128) ⟨(x 1).val, hx1⟩ ⟨(x 2).val, hx2⟩) ?_).trans ?_
  · rewrite [Shape.rowMajor_val_two, Shape.rowMajor_val_three]
    show (x 1).val * 128 + (x 2).val = ((x 0).val * 1024 + (x 1).val) * 128 + (x 2).val
    omega
  · refine (extractStridedSlice_apply offs v hs _
      (ix2 (n0 := 2048) (n1 := 128) ⟨r * 1024 + (x 1).val, by omega⟩ ⟨(x 2).val, hx2⟩) (fun a => ?_)).trans ?_
    · match a with
      | ⟨0, _⟩ => show r * 1024 + (x 1).val = offs 0 + (x 1).val; rw [f0]
      | ⟨1, _⟩ => show (x 2).val = offs 1 + (x 2).val; rw [f1]; omega
    · unfold unflat
      refine congrArg v (funext fun a => Fin.ext ?_)
      match a with
      | ⟨0, _⟩ =>
        show r * 1024 + (x 1).val = (off 0 + 1 * (x 0).val) * 1024 + (off 1 + 1 * (x 1).val)
        rw [e0, e1]; omega
      | ⟨1, _⟩ => show (x 2).val = off 2 + 1 * (x 2).val; rw [e2]; omega

set_option maxHeartbeats 1000000 in
/-- What the run leaves in the output's staging buffer is `blockOut` of the blocks it was given: the ten slab
    stores read back as the slab, the two output stores as the two halves of the body's result. -/
theorem out_eq (c : Dev nD) (i : grid0.Coords) (arg1 : Memref sig .tc .vmem S2x1028x128 .bf16) (harg1 : arg1.IsWhole) (arg2 : Memref sig .tc .vmem S640x512 .bf16) (harg2 : arg2.IsWhole) (arg3 : Memref sig .tc .vmem S1x512 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S2x1024x128 .f32) (harg10 : arg10.IsWhole) (arg11 : Memref sig .tc .vmem S2048x640 .bf16) (harg11 : arg11.IsWhole) (x0 : Vec F S2x1028x128 .bf16) (x1 : Vec F S640x512 .bf16) (x2 : Vec F S1x512 .f32) (x3 : Vec F S512x256 .bf16) (x4 : Vec F S1x256 .f32) (x5 : Vec F S256x128 .bf16) (x6 : Vec F S1x128 .f32) (x7 : Vec F S128x128 .bf16) (x8 : Vec F S1x128 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 = blockOut x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  simp only [View.readAt_eq_ld, harg1.read_unread, harg2.read_unread, harg3.read_unread, harg4.read_unread,
    harg5.read_unread, harg6.read_unread, harg7.read_unread, harg8.read_unread, harg9.read_unread,
    View.ld_unit_zero (S := S640x512) hz2, View.ld_unit_zero (S := S1x512) hz2, View.ld_unit_zero (S := S512x256) hz2,
    View.ld_unit_zero (S := S1x256) hz2, View.ld_unit_zero (S := S256x128) hz2, View.ld_unit_zero (S := S1x128) hz2,
    View.ld_unit_zero (S := S128x128) hz2]
  rw [View.readCov_eq_canon']
  have key : ∀ SL : Vec F S2048x640 .bf16, SL = slab x0 →
      View.canon ([⟨Rect.unit (s := S2x1024x128) ![1, 0, 0] S1x1024x128.size inb_S2x1024x128_S1x1024x128_1_0_0,
          k0_pay2 (k0_pay14 (k0_pay13 SL x1) x2 x3 x4 x5 x6 x7 x8)⟩,
        ⟨Rect.unit (s := S2x1024x128) ![0, 0, 0] S1x1024x128.size inb_S2x1024x128_S1x1024x128_0_0_0,
          k0_pay1 (k0_pay15 (k0_pay13 SL x1) x2 x3 x4 x5 x6 x7 x8)⟩] : List (View.Piece (Elt F) S2x1024x128 .f32))
        = blockOut x0 x1 x2 x3 x4 x5 x6 x7 x8 := by
    intro SL hSL
    subst hSL
    funext y
    refine View.canon_apply_of_pieces (blockOut x0 x1 x2 x3 x4 x5 x6 x7 x8) _ ?_ y
      (View.cover_of_tiledL (s := S2x1024x128) _ S1x1024x128.size (by sl_kernel_rfl) y)
    intro p hp x
    simp only [List.mem_cons, List.mem_nil_iff, or_false] at hp
    rcases hp with rfl | rfl
    · exact piece_out (body x0 x1 x2 x3 x4 x5 x6 x7 x8) 1 (by decide) ![1024, 0] rfl rfl
        slices_S2048x128_o1024_0_S1024x128 shapeCasts_S1024x128_S1x1024x128 ![1, 0, 0] rfl rfl rfl
        inb_S2x1024x128_S1x1024x128_1_0_0 x
    · exact piece_out (body x0 x1 x2 x3 x4 x5 x6 x7 x8) 0 (by decide) ![0, 0] rfl rfl
        slices_S2048x128_o0_0_S1024x128 shapeCasts_S1024x128_S1x1024x128 ![0, 0, 0] rfl rfl rfl
        inb_S2x1024x128_S1x1024x128_0_0_0 x
  refine key _ ?_
  funext j
  refine (View.canon_apply_of_pieces (slab x0) _ ?_ _
    (View.cover_of_tiledL (s := S2048x640) _ S1024x128.size (by sl_kernel_rfl) _)).trans ?_
  · intro p hp x
    simp only [List.mem_cons, List.mem_nil_iff, or_false] at hp
    rcases hp with rfl | rfl | rfl | rfl | rfl | rfl | rfl | rfl | rfl | rfl
    · exact piece_slab x0 1 4 (by decide) (by decide) ![1, 4, 0] rfl rfl rfl inb_S2x1028x128_S1x1024x128_1_4_0
        ![1024, 512] rfl rfl inb_S2048x640_S1024x128_1024_512 shapeCasts_S1x1024x128_S1024x128
        shapeCasts_S1024x128_S1024x128 x
    · exact piece_slab x0 1 3 (by decide) (by decide) ![1, 3, 0] rfl rfl rfl inb_S2x1028x128_S1x1024x128_1_3_0
        ![1024, 384] rfl rfl inb_S2048x640_S1024x128_1024_384 shapeCasts_S1x1024x128_S1024x128
        shapeCasts_S1024x128_S1024x128 x
    · exact piece_slab x0 1 2 (by decide) (by decide) ![1, 2, 0] rfl rfl rfl inb_S2x1028x128_S1x1024x128_1_2_0
        ![1024, 256] rfl rfl inb_S2048x640_S1024x128_1024_256 shapeCasts_S1x1024x128_S1024x128
        shapeCasts_S1024x128_S1024x128 x
    · exact piece_slab x0 1 1 (by decide) (by decide) ![1, 1, 0] rfl rfl rfl inb_S2x1028x128_S1x1024x128_1_1_0
        ![1024, 128] rfl rfl inb_S2048x640_S1024x128_1024_128 shapeCasts_S1x1024x128_S1024x128
        shapeCasts_S1024x128_S1024x128 x
    · exact piece_slab x0 1 0 (by decide) (by decide) ![1, 0, 0] rfl rfl rfl inb_S2x1028x128_S1x1024x128_1_0_0
        ![1024, 0] rfl rfl inb_S2048x640_S1024x128_1024_0 shapeCasts_S1x1024x128_S1024x128
        shapeCasts_S1024x128_S1024x128 x
    · exact piece_slab x0 0 4 (by decide) (by decide) ![0, 4, 0] rfl rfl rfl inb_S2x1028x128_S1x1024x128_0_4_0
        ![0, 512] rfl rfl inb_S2048x640_S1024x128_0_512 shapeCasts_S1x1024x128_S1024x128
        shapeCasts_S1024x128_S1024x128 x
    · exact piece_slab x0 0 3 (by decide) (by decide) ![0, 3, 0] rfl rfl rfl inb_S2x1028x128_S1x1024x128_0_3_0
        ![0, 384] rfl rfl inb_S2048x640_S1024x128_0_384 shapeCasts_S1x1024x128_S1024x128
        shapeCasts_S1024x128_S1024x128 x
    · exact piece_slab x0 0 2 (by decide) (by decide) ![0, 2, 0] rfl rfl rfl inb_S2x1028x128_S1x1024x128_0_2_0
        ![0, 256] rfl rfl inb_S2048x640_S1024x128_0_256 shapeCasts_S1x1024x128_S1024x128
        shapeCasts_S1024x128_S1024x128 x
    · exact piece_slab x0 0 1 (by decide) (by decide) ![0, 1, 0] rfl rfl rfl inb_S2x1028x128_S1x1024x128_0_1_0
        ![0, 128] rfl rfl inb_S2048x640_S1024x128_0_128 shapeCasts_S1x1024x128_S1024x128
        shapeCasts_S1024x128_S1024x128 x
    · exact piece_slab x0 0 0 (by decide) (by decide) ![0, 0, 0] rfl rfl rfl inb_S2x1028x128_S1x1024x128_0_0_0
        ![0, 0] rfl rfl inb_S2048x640_S1024x128_0_0 shapeCasts_S1x1024x128_S1024x128
        shapeCasts_S1024x128_S1024x128 x
  · refine congrArg (slab x0) (funext fun a => Fin.ext ?_)
    match a with
    | ⟨0, _⟩ => show 0 + 1 * (j 0).val = (j 0).val; omega
    | ⟨1, _⟩ => show 0 + 1 * (j 1).val = (j 1).val; omega

end Cert.KernelIdeal.Piece

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.MlpRows.lean ====
/-
  A stack of dense layers applied to every row of a matrix, over the extended reals.

  For `x` of shape `[M, K]`, weights `w` of shape `[K, N]` and a bias `b` of length `N`, `dense x w b` is the
  `[M, N]` array with entry `(r, n) = ∑ₖ x(r, k) · w(k, n) + bₙ`; `relu` is the entrywise maximum with the float
  zero. `mlp` is four dense layers with `relu` after the first three.

  Two facts are all the later modules need, and neither reorders a sum or uses finiteness:
  * rows: row `r` of the result depends only on row `r` of the input, so if `xb` holds rows `e r` of `x` then
    `mlp xb …` holds rows `e r` of `mlp x …` (`mlp_rows`);
  * columns of the last layer: column `c` of a dense layer depends only on column `c` of the weights and entry `c`
    of the bias, so widening the weights and the bias with further columns leaves the old columns as they were
    (`dense_cols`, `mlp_cols`).
-/
import Idealize.ShloMosaic.Lib.ValueIdx
import Idealize.ShloMosaic.PureOps.Ideal.Laws
import proofs.«124656_j6622839570978_2_alg».proof.Proof.LibPlainProduct

noncomputable section

open scoped BigOperators

namespace Cert.MlpRows

open Idealize.ShloMosaic Idealize.ShloMosaic.ValueIdx Idealize.ShloMosaic.PlainProduct

/-- An array of extended reals over a two-axis shape. -/
abbrev Mat (M N : Nat) : Type := (⟨2, ![M, N]⟩ : Shape).Idx → EReal

/-- The float zero word read as an extended real. -/
abbrev zeroW : EReal := Ideal.ofBits .f32 0x00000000#32

variable {M B K N N' : Nat}

/-- A dense layer on every row: `(r, n) ↦ ∑ₖ x(r, k) · w(k, n) + bₙ`. -/
def dense (x : Mat M K) (w : Mat K N) (b : Fin N → EReal) : Mat M N :=
  fun j => rowsByCols (φ₁ := .f32) (φ₂ := .f32) x w j + b (j 1)

/-- The entrywise maximum with zero. -/
def relu (x : Mat M N) : Mat M N := fun j => max (x j) zeroW

theorem dense_rows (x : Mat M K) (w : Mat K N) (b : Fin N → EReal) (xb : Mat B K) (e : Fin B → Fin M)
    (hxb : ∀ (r : Fin B) (k : Fin K), xb (ix2 r k) = x (ix2 (e r) k)) (r : Fin B) (n : Fin N) :
    dense xb w b (ix2 r n) = dense x w b (ix2 (e r) n) := by
  unfold dense
  rw [rowsByCols_rows (φ₁ := .f32) (φ₂ := .f32) x w xb e hxb (ix2 r n)]
  rfl

theorem relu_rows (x : Mat M N) (xb : Mat B N) (e : Fin B → Fin M)
    (hxb : ∀ (r : Fin B) (n : Fin N), xb (ix2 r n) = x (ix2 (e r) n)) (r : Fin B) (n : Fin N) :
    relu xb (ix2 r n) = relu x (ix2 (e r) n) := by
  unfold relu
  rw [hxb r n]

/-- Column `c` of a dense layer reads column `f c` of wider weights and entry `f c` of a longer bias. -/
theorem dense_cols (x : Mat M K) (w : Mat K N) (b : Fin N → EReal) (w' : Mat K N') (b' : Fin N' → EReal)
    (f : Fin N → Fin N') (hw : ∀ (k : Fin K) (c : Fin N), w (ix2 k c) = w' (ix2 k (f c))) (hb : ∀ c : Fin N, b c = b' (f c))
    (r : Fin M) (c : Fin N) :
    dense x w b (ix2 r c) = dense x w' b' (ix2 r (f c)) := by
  unfold dense
  rw [rowsByCols_apply, rowsByCols_apply]
  show (∑ k : Fin K, x (ix2 r k) * w (ix2 k c)) + b c = (∑ k : Fin K, x (ix2 r k) * w' (ix2 k (f c))) + b' (f c)
  rw [hb c]
  exact congrArg (· + b' (f c)) (Finset.sum_congr rfl fun k _ => by rw [hw k c])

variable {K1 K2 K3 : Nat}

/-- Four dense layers, `relu` after the first three. -/
def mlp (x : Mat M K) (w1 : Mat K K1) (b1 : Fin K1 → EReal) (w2 : Mat K1 K2) (b2 : Fin K2 → EReal)
    (w3 : Mat K2 K3) (b3 : Fin K3 → EReal) (w4 : Mat K3 N) (b4 : Fin N → EReal) : Mat M N :=
  dense (relu (dense (relu (dense (relu (dense x w1 b1)) w2 b2)) w3 b3)) w4 b4

/-- Rows `e r` of the result are the result of rows `e r` of the input. -/
theorem mlp_rows (x : Mat M K) (xb : Mat B K) (e : Fin B → Fin M)
    (hxb : ∀ (r : Fin B) (k : Fin K), xb (ix2 r k) = x (ix2 (e r) k))
    (w1 : Mat K K1) (b1 : Fin K1 → EReal) (w2 : Mat K1 K2) (b2 : Fin K2 → EReal)
    (w3 : Mat K2 K3) (b3 : Fin K3 → EReal) (w4 : Mat K3 N) (b4 : Fin N → EReal) (r : Fin B) (n : Fin N) :
    mlp xb w1 b1 w2 b2 w3 b3 w4 b4 (ix2 r n) = mlp x w1 b1 w2 b2 w3 b3 w4 b4 (ix2 (e r) n) := by
  unfold mlp
  refine dense_rows _ w4 b4 _ e (fun r k => ?_) r n
  refine relu_rows _ _ e (fun r k => ?_) r k
  refine dense_rows _ w3 b3 _ e (fun r k => ?_) r k
  refine relu_rows _ _ e (fun r k => ?_) r k
  refine dense_rows _ w2 b2 _ e (fun r k => ?_) r k
  refine relu_rows _ _ e (fun r k => ?_) r k
  exact dense_rows x w1 b1 xb e hxb r k

/-- The result's column `c` reads column `f c` of wider last-layer weights and entry `f c` of a longer last bias. -/
theorem mlp_cols (x : Mat M K) (w1 : Mat K K1) (b1 : Fin K1 → EReal) (w2 : Mat K1 K2) (b2 : Fin K2 → EReal)
    (w3 : Mat K2 K3) (b3 : Fin K3 → EReal) (w4 : Mat K3 N) (b4 : Fin N → EReal) (w4' : Mat K3 N') (b4' : Fin N' → EReal)
    (f : Fin N → Fin N') (hw : ∀ (k : Fin K3) (c : Fin N), w4 (ix2 k c) = w4' (ix2 k (f c))) (hb : ∀ c : Fin N, b4 c = b4' (f c))
    (r : Fin M) (c : Fin N) :
    mlp x w1 b1 w2 b2 w3 b3 w4 b4 (ix2 r c) = mlp x w1 b1 w2 b2 w3 b3 w4' b4' (ix2 r (f c)) :=
  dense_cols _ w4 b4 w4' b4' f hw hb r c

end Cert.MlpRows

end
-- ==== Proof.KernelBlock.lean ====
/-
  The kernel body's arithmetic at the exact values.

  The body multiplies the `[2048, 640]` slab by the first weight block into a zero accumulator, adds the first bias
  (held as one row `[1, 512]` and repeated down the rows), takes the maximum with zero, and does the same twice more
  and a fourth time without the maximum. Over the extended reals a change of float format is the identity, a product
  into the zero accumulator is the plain sum `∑ₖ x(r, k) · w(k, n)`, and a one-row array repeated down the rows
  reads its entry in the column: so the whole body is `MlpRows.mlp` of the slab, the four weight blocks and the four
  bias rows (`body_arith`). No sum is reordered.
-/
import proofs.«124656_j6622839570978_2_alg».proof.Proof.Gen.KernelIdeal.Skeleton
import proofs.«124656_j6622839570978_2_alg».proof.Proof.MlpRows
import Idealize.ShloMosaic.Lib.ValueLayout
import Idealize.ShloMosaic.Lib.Pipeline.Value

noncomputable section

namespace Cert.KernelIdeal.Block

open Idealize.ShloMosaic Idealize.ShloMosaic.ValueIdx Idealize.ShloMosaic.PlainProduct Cert.MlpRows
open Cert.KernelIdeal Cert.KernelIdeal.Gen

/-- The one row of a `[1, N]` array, as a function of the column. -/
def rowv {N : Nat} (b : (⟨2, ![1, N]⟩ : Shape).Idx → EReal) : Fin N → EReal :=
  fun n => b (ix2 (n0 := 1) (n1 := N) ⟨0, Nat.one_pos⟩ n)

/-- A one-row array repeated down `M` rows, added to `a`: entry `(r, n)` is `a (r, n) + b (0, n)`. -/
theorem add_bias {M N : Nat} (a : FVec Ideal ⟨2, ![M, N]⟩ .f32) (b : FVec Ideal ⟨2, ![1, N]⟩ .f32)
    (hb : (⟨2, ![1, N]⟩ : Shape).ShapeCasts ⟨2, ![1, N]⟩) (hbb : (⟨2, ![1, N]⟩ : Shape).Broadcasts ⟨2, ![M, N]⟩) :
    addf a (broadcastTo ⟨2, ![M, N]⟩ (shapeCast ⟨2, ![1, N]⟩ b hb) hbb) = fun j => a j + rowv b (j 1) := by
  rw [shapeCast_self]
  funext j
  obtain ⟨r, n, rfl⟩ : ∃ (r : Fin M) (n : Fin N), j = ix2 r n := ⟨j 0, j 1, eq_ix2 j⟩
  show a (ix2 r n) + broadcastTo ⟨2, ![M, N]⟩ b hbb (ix2 r n) = _
  rw [broadcastTo_1b_ab_apply]
  rfl

/-- A product into the zero accumulator with the plain dimension numbers, against a re-cast weight block. -/
theorem matmul_eq {M K N : Nat} (d : DotDims ⟨2, ![M, K]⟩ ⟨2, ![K, N]⟩ ⟨2, ![M, N]⟩) (hd : d = DotDims.plain M K N)
    {φ₁ φ₂ : FTy} (a : FVec Ideal ⟨2, ![M, K]⟩ φ₁) (w : FVec Ideal ⟨2, ![K, N]⟩ φ₂)
    (hw : (⟨2, ![K, N]⟩ : Shape).ShapeCasts ⟨2, ![K, N]⟩) :
    matmul d none a (shapeCast ⟨2, ![K, N]⟩ w hw) (constant ⟨2, ![M, N]⟩ .f32 0x00000000#32) = rowsByCols a w := by
  subst hd
  rw [shapeCast_self]
  exact matmul_zero_plain none a w

/-- The maximum with the splat of the zero word is `relu`. -/
theorem max_zero {M N : Nat} (a : FVec Ideal ⟨2, ![M, N]⟩ .f32) :
    maximumf a (broadcast ⟨2, ![M, N]⟩ (Scalar.ofBits (F := Ideal) .f32 0x00000000#32)) = relu a := rfl

/-- The body's arithmetic is the perceptron of the slab. -/
theorem body_arith (S : Vec Ideal S2048x640 .bf16) (x1 : Vec Ideal S640x512 .bf16) (x2 : Vec Ideal S1x512 .f32)
    (x3 : Vec Ideal S512x256 .bf16) (x4 : Vec Ideal S1x256 .f32) (x5 : Vec Ideal S256x128 .bf16)
    (x6 : Vec Ideal S1x128 .f32) (x7 : Vec Ideal S128x128 .bf16) (x8 : Vec Ideal S1x128 .f32) :
    k0_pay14 (k0_pay13 S x1) x2 x3 x4 x5 x6 x7 x8
      = mlp S x1 (rowv x2) x3 (rowv x4) x5 (rowv x6) x7 (rowv x8) := by
  unfold k0_pay14 k0_pay13
  dsimp only
  rw [matmul_eq dot_S2048x640_S640x512_S2048x512_1_0_0_1_n_n rfl S x1,
    matmul_eq dot_S2048x512_S512x256_S2048x256_1_0_0_1_n_n rfl _ x3,
    matmul_eq dot_S2048x256_S256x128_S2048x128_1_0_0_1_n_n rfl _ x5,
    matmul_eq dot_S2048x128_S128x128_S2048x128_1_0_0_1_n_n rfl _ x7]
  simp only [add_bias]
  rfl

end Cert.KernelIdeal.Block

end
-- ==== Proof.Spec.lean ====
/-
  The result both programs compute, as one function of the padded embedded tokens and the eight parameter arrays.

  `xp` is the padded embedding array, shape `[64, 1028, 128]`: batch row `p`, padded position `s'`, feature `e`.
  Position `s` of batch row `p` sees the five padded positions `s, …, s + 4` side by side: its context row has
  length `640 = 5 · 128`, and entry `k` is `xp (p, s + k / 128, k % 128)` (`ctx`: row `R = 1024 · p + s`).
  The result at `(p, s, v)` is entry `v` of the four-layer perceptron (`MlpRows.mlp`) of that context row, with
  weights `W₁ᵀ, …, W₄ᵀ` (each `Wᵢ` is stored `[out, in]`, hence the transposes `tr`) and biases `b₁, …, b₄`.
-/
import proofs.«124656_j6622839570978_2_alg».proof.Proof.MlpRows

noncomputable section

namespace Cert.Spec

open Idealize.ShloMosaic Idealize.ShloMosaic.ValueIdx Cert.MlpRows

/-- The transpose: `(k, n) ↦ W (n, k)`. -/
def tr {N K : Nat} (W : Mat N K) : Mat K N := fun j => W (ix2 (j 1) (j 0))

theorem tr_apply {N K : Nat} (W : Mat N K) (k : Fin K) (n : Fin N) : tr W (ix2 k n) = W (ix2 n k) := rfl

/-- A one-axis array as a function of its coordinate. -/
def vec {N : Nat} (b : (⟨1, ![N]⟩ : Shape).Idx → EReal) : Fin N → EReal := fun n => b (ix1 n)

/-- The padded embedded tokens. -/
abbrev Xp : Type := (⟨3, ![64, 1028, 128]⟩ : Shape).Idx → EReal

/-- Where entry `k` of context row `R` sits in the padded array: batch row `R / 1024`, padded position
    `R % 1024 + k / 128`, feature `k % 128`. -/
def ctxIdx (R : Fin 65536) (k : Fin 640) : (⟨3, ![64, 1028, 128]⟩ : Shape).Idx :=
  ix3 (n0 := 64) (n1 := 1028) (n2 := 128) ⟨R.val / 1024, by have := R.isLt; omega⟩
    ⟨R.val % 1024 + k.val / 128, by have := k.isLt; omega⟩ ⟨k.val % 128, by omega⟩

/-- The context rows, one per (batch row, position). -/
def ctx (xp : Xp) : Mat 65536 640 := fun j => xp (ctxIdx (j 0) (j 1))

theorem ctx_apply (xp : Xp) (R : Fin 65536) (k : Fin 640) : ctx xp (ix2 R k) = xp (ctxIdx R k) := rfl

/-- The context row of position `s` of batch row `p`. -/
def rowOf (p : Fin 64) (s : Fin 1024) : Fin 65536 := ⟨p.val * 1024 + s.val, by have := p.isLt; have := s.isLt; omega⟩

/-- The result: at `(p, s, v)`, entry `v` of the perceptron of context row `(p, s)`. -/
def G (xp : Xp) (W1 : Mat 512 640) (b1 : (⟨1, ![512]⟩ : Shape).Idx → EReal) (W2 : Mat 256 512)
    (b2 : (⟨1, ![256]⟩ : Shape).Idx → EReal) (W3 : Mat 128 256) (b3 : (⟨1, ![128]⟩ : Shape).Idx → EReal)
    (W4 : Mat 38 128) (b4 : (⟨1, ![38]⟩ : Shape).Idx → EReal) : (⟨3, ![64, 1024, 38]⟩ : Shape).Idx → EReal :=
  fun y => mlp (ctx xp) (tr W1) (vec b1) (tr W2) (vec b2) (tr W3) (vec b3) (tr W4) (vec b4)
    (ix2 (rowOf (y 0) (y 1)) (y 2))

theorem G_apply (xp : Xp) (W1 : Mat 512 640) (b1 : (⟨1, ![512]⟩ : Shape).Idx → EReal) (W2 : Mat 256 512)
    (b2 : (⟨1, ![256]⟩ : Shape).Idx → EReal) (W3 : Mat 128 256) (b3 : (⟨1, ![128]⟩ : Shape).Idx → EReal)
    (W4 : Mat 38 128) (b4 : (⟨1, ![38]⟩ : Shape).Idx → EReal) (p : Fin 64) (s : Fin 1024) (v : Fin 38) :
    G xp W1 b1 W2 b2 W3 b3 W4 b4 (ix3 p s v)
      = mlp (ctx xp) (tr W1) (vec b1) (tr W2) (vec b2) (tr W3) (vec b3) (tr W4) (vec b4) (ix2 (rowOf p s) v) := rfl

end Cert.Spec

end
-- ==== Proof.KernelPoint.lean ====
/-
  One grid point's output block is a block of one whole-array function.

  `GK` is the kernel's whole (padded, 128-wide) output as a function of the padded embedded tokens `XP` and the
  region's eight parameter arrays: at `(p, s, n)`, entry `n` of the perceptron of context row `(p, s)`.
  Grid point `t` is given batch rows `2t, 2t + 1` of `XP`. Its slab's row `ρ` is context row `2048·t + ρ` of the
  whole array (both read `XP` at batch row `2t + ρ / 1024`, positions `ρ % 1024 + k / 128`), and a row of the
  perceptron's result depends only on that row of its input (`MlpRows.mlp_rows`): so the block the point leaves
  is `GK` at batch rows `2t, 2t + 1` (`point_eq`).
-/
import proofs.«124656_j6622839570978_2_alg».proof.Proof.KernelPiece
import proofs.«124656_j6622839570978_2_alg».proof.Proof.KernelBlock
import proofs.«124656_j6622839570978_2_alg».proof.Proof.Spec

noncomputable section

namespace Cert.KernelIdeal.Point

open Idealize.ShloMosaic Idealize.ShloMosaic.ValueIdx Cert.MlpRows Cert.Spec
open Cert.KernelIdeal Cert.KernelIdeal.Gen Cert.KernelIdeal.Piece Cert.KernelIdeal.Block

/-- The kernel's whole padded output: at `(p, s, n)`, entry `n` of the perceptron of context row `(p, s)`. -/
def GK (XP : Xp) (W1 : Mat 640 512) (B1 : Mat 1 512) (W2 : Mat 512 256) (B2 : Mat 1 256) (W3 : Mat 256 128)
    (B3 : Mat 1 128) (W4 : Mat 128 128) (B4 : Mat 1 128) : (⟨3, ![64, 1024, 128]⟩ : Shape).Idx → EReal :=
  fun i => mlp (ctx XP) W1 (rowv B1) W2 (rowv B2) W3 (rowv B3) W4 (rowv B4) (ix2 (rowOf (i 0) (i 1)) (i 2))

/-- Row `ρ` of point `tv`'s slab is context row `2048·tv + ρ`. -/
theorem slab_row (XP : Xp) (x0 : Vec Ideal S2x1028x128 .bf16) (tv : Nat) (ht : tv < 32)
    (h0 : ∀ (r : Fin 2) (s : Fin 1028) (e : Fin 128),
      x0 (ix3 r s e) = XP (ix3 (n0 := 64) (n1 := 1028) (n2 := 128) ⟨2 * tv + r.val, by have := r.isLt; omega⟩ s e))
    (r : Fin 2048) (k : Fin 640) :
    slab x0 (ix2 r k) = ctx XP (ix2 (n0 := 65536) (n1 := 640) ⟨2048 * tv + r.val, by have := r.isLt; omega⟩ k) := by
  have hr : r.val < 2048 := r.isLt
  have hk : k.val < 640 := k.isLt
  refine (h0 ⟨r.val / 1024, by omega⟩ ⟨r.val % 1024 + k.val / 128, by omega⟩ ⟨k.val % 128, by omega⟩).trans ?_
  refine congrArg XP (funext fun a => Fin.ext ?_)
  match a with
  | ⟨0, _⟩ => show 2 * tv + r.val / 1024 = (2048 * tv + r.val) / 1024; omega
  | ⟨1, _⟩ => show r.val % 1024 + k.val / 128 = (2048 * tv + r.val) % 1024 + k.val / 128; omega
  | ⟨2, _⟩ => rfl

/-- The block point `tv` leaves is `GK` at batch rows `2·tv, 2·tv + 1`. -/
theorem point_eq (XP : Xp) (W1 : Mat 640 512) (B1 : Mat 1 512) (W2 : Mat 512 256) (B2 : Mat 1 256) (W3 : Mat 256 128)
    (B3 : Mat 1 128) (W4 : Mat 128 128) (B4 : Mat 1 128) (x0 : Vec Ideal S2x1028x128 .bf16) (tv : Nat) (ht : tv < 32)
    (h0 : ∀ (r : Fin 2) (s : Fin 1028) (e : Fin 128),
      x0 (ix3 r s e) = XP (ix3 (n0 := 64) (n1 := 1028) (n2 := 128) ⟨2 * tv + r.val, by have := r.isLt; omega⟩ s e))
    (j0 : Fin 2) (j1 : Fin 1024) (j2 : Fin 128) :
    blockOut (F := Ideal) x0 W1 B1 W2 B2 W3 B3 W4 B4 (ix3 j0 j1 j2)
      = GK XP W1 B1 W2 B2 W3 B3 W4 B4
          (ix3 (n0 := 64) (n1 := 1024) (n2 := 128) ⟨2 * tv + j0.val, by have := j0.isLt; omega⟩ j1 j2) := by
  have hj0 : j0.val < 2 := j0.isLt
  have hj1 : j1.val < 1024 := j1.isLt
  unfold blockOut unflat body
  rw [body_arith]
  refine (mlp_rows (ctx XP) (slab x0) (fun r : Fin 2048 => (⟨2048 * tv + r.val, by have := r.isLt; omega⟩ : Fin 65536))
    (slab_row XP x0 tv ht h0) W1 (rowv B1) W2 (rowv B2) W3 (rowv B3) W4 (rowv B4)
    ⟨j0.val * 1024 + j1.val, by omega⟩ j2).trans ?_
  unfold GK
  have e : (⟨2048 * tv + (j0.val * 1024 + j1.val), by omega⟩ : Fin 65536)
      = rowOf ⟨2 * tv + j0.val, by omega⟩ j1 := Fin.ext (by show 2048 * tv + (j0.val * 1024 + j1.val) = (2 * tv + j0.val) * 1024 + j1.val; omega)
  exact congrArg (fun R => mlp (ctx XP) W1 (rowv B1) W2 (rowv B2) W3 (rowv B3) W4 (rowv B4) (ix2 R j2)) e

end Cert.KernelIdeal.Point

end
-- ==== Proof.KernelHost.lean ====
/-
  The arrays the kernel's region is given, as functions of the program's arguments.

  Before the region the program wraps negative tokens (`tok < 0 → tok + 38`), looks each token up in the embedding
  table, pads the sequence axis with two zero positions on each side (`xpK`: shape `[64, 1028, 128]`), transposes
  the four weight matrices, pads the last one from 38 to 128 columns and the last bias from 38 to 128 entries with
  zeros, and lays each bias out as one row. The changes of float format in between are the identity on the exact
  values. Each lemma below reads one of the region's nine input arrays off the operations before the region.
-/
import proofs.«124656_j6622839570978_2_alg».proof.Proof.Gen.KernelIdeal.Frame
import Idealize.ShloMosaic.Lib.StableHlo.Run
import Idealize.ShloMosaic.PureOps.Ideal
import Idealize.ShloMosaic.Lib.Tactic

noncomputable section

namespace Cert.KernelIdeal.HostSide

open Idealize.ShloMosaic Idealize.ShloMosaic.TcCoe Idealize.SL.Sem Idealize.ShloMosaic.StableHlo
open Cert.KernelIdeal Cert.KernelIdeal.Gen

/-- The tokens with the negative ones wrapped, laid out `[64, 1024, 1]`. -/
def tokK (a0 : (⟨S64x1024, .i32⟩ : BufTy).Contents (Elt Ideal)) : (⟨S64x1024x1, .i32⟩ : BufTy).Contents (Elt Ideal) :=
  broadcastInDim S64x1024x1 ![0, 1] bcast_S64x1024_S64x1024x1_0_1
    (select (cmpi .slt a0 (broadcastInDim S64x1024 ![] bcast_S_S64x1024 (constantI S_ 32 0#32)))
      (addi a0 (broadcastInDim S64x1024 ![] bcast_S_S64x1024 (constantI S_ 32 38#32))) a0)

/-- The embedded tokens, padded by two positions on each side of the sequence axis. -/
def xpK (a0 : (⟨S64x1024, .i32⟩ : BufTy).Contents (Elt Ideal)) (a1 : (⟨S38x128, .f32⟩ : BufTy).Contents (Elt Ideal)) :
    (⟨S64x1028x128, .f32⟩ : BufTy).Contents (Elt Ideal) :=
  pad S64x1028x128 ![0, 2, 0] ![0, 2, 0] ![0, 0, 0]
    (Host.gather gather_S38x128_S64x1024x1_S64x1024x128_2_0_n_n_0_2_1128 a1 (tokK a0))
    (sitofp (F := Ideal) .f32 (constantI S_ 32 0#32)) pads_S64x1024x128_S64x1028x128_000_220_000 h_S_

/-- The last weight matrix transposed and widened from 38 to 128 columns with zeros. -/
def w4K (a8 : (⟨S38x128, .f32⟩ : BufTy).Contents (Elt Ideal)) : (⟨S128x128, .f32⟩ : BufTy).Contents (Elt Ideal) :=
  pad S128x128 ![0, 0] ![0, 90] ![0, 0] (transpose S128x38 [1, 0] a8 transposes_S38x128_S128x38_1_0)
    (sitofp (F := Ideal) .f32 (constantI S_ 32 0#32)) pads_S128x38_S128x128_000_0900 h_S_

/-- The last bias lengthened from 38 to 128 entries with zeros. -/
def b4K (a9 : (⟨S38, .f32⟩ : BufTy).Contents (Elt Ideal)) : (⟨S128, .f32⟩ : BufTy).Contents (Elt Ideal) :=
  pad S128 ![0] ![90] ![0] a9 (sitofp (F := Ideal) .f32 (constantI S_ 32 0#32)) pads_S38_S128_0900 h_S_

variable (m : (ℓ : Loc nD τ sig) → Buf (Elt Ideal) ℓ)

set_option maxHeartbeats 1000000 in
theorem V_v8 (c : Dev nD) : (V m c main_v8 : S64x1028x128.Idx → EReal)
    = xpK (m ((c : Thread nD τ).loc main_arg0)) (m ((c : Thread nD τ).loc main_arg1)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

set_option maxHeartbeats 1000000 in
theorem V_v10 (c : Dev nD) : (V m c main_v10 : S640x512.Idx → EReal)
    = transpose S640x512 [1, 0] (m ((c : Thread nD τ).loc main_arg2)) transposes_S512x640_S640x512_1_0 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

set_option maxHeartbeats 1000000 in
theorem V_v19 (c : Dev nD) : (V m c main_v19 : S1x512.Idx → EReal)
    = shapeCast S1x512 (m ((c : Thread nD τ).loc main_arg3)) shapeCasts_S512_S1x512 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

set_option maxHeartbeats 1000000 in
theorem V_v12 (c : Dev nD) : (V m c main_v12 : S512x256.Idx → EReal)
    = transpose S512x256 [1, 0] (m ((c : Thread nD τ).loc main_arg4)) transposes_S256x512_S512x256_1_0 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

set_option maxHeartbeats 1000000 in
theorem V_v20 (c : Dev nD) : (V m c main_v20 : S1x256.Idx → EReal)
    = shapeCast S1x256 (m ((c : Thread nD τ).loc main_arg5)) shapeCasts_S256_S1x256 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

set_option maxHeartbeats 1000000 in
theorem V_v14 (c : Dev nD) : (V m c main_v14 : S256x128.Idx → EReal)
    = transpose S256x128 [1, 0] (m ((c : Thread nD τ).loc main_arg6)) transposes_S128x256_S256x128_1_0 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

set_option maxHeartbeats 1000000 in
theorem V_v21 (c : Dev nD) : (V m c main_v21 : S1x128.Idx → EReal)
    = shapeCast S1x128 (m ((c : Thread nD τ).loc main_arg7)) shapeCasts_S128_S1x128 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

set_option maxHeartbeats 1000000 in
theorem V_v17 (c : Dev nD) : (V m c main_v17 : S128x128.Idx → EReal)
    = w4K (m ((c : Thread nD τ).loc main_arg8)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

set_option maxHeartbeats 1000000 in
theorem V_v22 (c : Dev nD) : (V m c main_v22 : S1x128.Idx → EReal)
    = shapeCast S1x128 (b4K (m ((c : Thread nD τ).loc main_arg9))) shapeCasts_S128_S1x128 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

end Cert.KernelIdeal.HostSide

end
-- ==== Proof.KernelValue.lean ====
/-
  The kernel program's result, read off its run.

  Grid point `t` of the 32 is given batch rows `2t, 2t + 1` of the padded embedded tokens and the eight parameter
  arrays whole, and writes back batch rows `2t, 2t + 1` of the `[64, 1024, 128]` output. What it writes is the block
  of one whole-array function (`GKm`, by `Point.point_eq`), and the 32 blocks cover the output: so after the region
  the output array IS that function (`final`). The program's last operation keeps columns `0…37`.
-/
import proofs.«124656_j6622839570978_2_alg».proof.Proof.KernelPoint
import proofs.«124656_j6622839570978_2_alg».proof.Proof.KernelHost
import Idealize.ShloMosaic.Lib.Pipeline.Value
import Idealize.ShloMosaic.Lib.StableHlo.Run

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The kernel's whole padded output as a function of the arrays the region is given. -/
def GKm (c : Dev nD) : S64x1024x128.Idx → EReal :=
  Point.GK (V m c main_v8) (V m c main_v10) (V m c main_v19) (V m c main_v12) (V m c main_v20) (V m c main_v14) (V m c main_v21) (V m c main_v17) (V m c main_v22)

theorem idx_0 : ∀ t : Fin cfg0.N, win0_0.index t (0 : Fin 3) = t.val ∧ win0_0.index t (1 : Fin 3) = 0
    ∧ win0_0.index t (2 : Fin 3) = 0 :=
  (by decide +kernel : ∀ t : Fin grid0.N, _)

theorem idx_9 : ∀ t : Fin cfg0.N, win0_9.index t (0 : Fin 3) = t.val ∧ win0_9.index t (1 : Fin 3) = 0
    ∧ win0_9.index t (2 : Fin 3) = 0 :=
  (by decide +kernel : ∀ t : Fin grid0.N, _)

theorem idx_1 : ∀ t : Fin cfg0.N, win0_1.index t (0 : Fin 2) = 0 ∧ win0_1.index t (1 : Fin 2) = 0 :=
  (by decide +kernel : ∀ t : Fin grid0.N, _)

/-- Window 1's block at every point is its whole array. -/
theorem iblk_1 (c : Dev nD) (t : Fin cfg0.N) :
    (iblk m c 1 t : S640x512.Idx → EReal) = (V m c main_v10 : S640x512.Idx → EReal) := by
  obtain ⟨e0, e1⟩ := idx_1 t
  funext y
  show V m c main_v10 (((cfg0.win 1).blk t).view.emb y) = V m c main_v10 y
  refine congrArg (V m c main_v10) (funext fun a => Fin.ext ?_)
  match a with
  | ⟨0, _⟩ => show win0_1.index t (0 : Fin 2) * 640 + 1 * (y 0).val = (y 0).val; omega
  | ⟨1, _⟩ => show win0_1.index t (1 : Fin 2) * 512 + 1 * (y 1).val = (y 1).val; omega

theorem idx_2 : ∀ t : Fin cfg0.N, win0_2.index t (0 : Fin 2) = 0 ∧ win0_2.index t (1 : Fin 2) = 0 :=
  (by decide +kernel : ∀ t : Fin grid0.N, _)

/-- Window 2's block at every point is its whole array. -/
theorem iblk_2 (c : Dev nD) (t : Fin cfg0.N) :
    (iblk m c 2 t : S1x512.Idx → EReal) = (V m c main_v19 : S1x512.Idx → EReal) := by
  obtain ⟨e0, e1⟩ := idx_2 t
  funext y
  show V m c main_v19 (((cfg0.win 2).blk t).view.emb y) = V m c main_v19 y
  refine congrArg (V m c main_v19) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

theorem idx_3 : ∀ t : Fin cfg0.N, win0_3.index t (0 : Fin 2) = 0 ∧ win0_3.index t (1 : Fin 2) = 0 :=
  (by decide +kernel : ∀ t : Fin grid0.N, _)

/-- Window 3's block at every point is its whole array. -/
theorem iblk_3 (c : Dev nD) (t : Fin cfg0.N) :
    (iblk m c 3 t : S512x256.Idx → EReal) = (V m c main_v12 : S512x256.Idx → EReal) := by
  obtain ⟨e0, e1⟩ := idx_3 t
  funext y
  show V m c main_v12 (((cfg0.win 3).blk t).view.emb y) = V m c main_v12 y
  refine congrArg (V m c main_v12) (funext fun a => Fin.ext ?_)
  match a with
  | ⟨0, _⟩ => show win0_3.index t (0 : Fin 2) * 512 + 1 * (y 0).val = (y 0).val; omega
  | ⟨1, _⟩ => show win0_3.index t (1 : Fin 2) * 256 + 1 * (y 1).val = (y 1).val; omega

theorem idx_4 : ∀ t : Fin cfg0.N, win0_4.index t (0 : Fin 2) = 0 ∧ win0_4.index t (1 : Fin 2) = 0 :=
  (by decide +kernel : ∀ t : Fin grid0.N, _)

/-- Window 4's block at every point is its whole array. -/
theorem iblk_4 (c : Dev nD) (t : Fin cfg0.N) :
    (iblk m c 4 t : S1x256.Idx → EReal) = (V m c main_v20 : S1x256.Idx → EReal) := by
  obtain ⟨e0, e1⟩ := idx_4 t
  funext y
  show V m c main_v20 (((cfg0.win 4).blk t).view.emb y) = V m c main_v20 y
  refine congrArg (V m c main_v20) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem idx_5 : ∀ t : Fin cfg0.N, win0_5.index t (0 : Fin 2) = 0 ∧ win0_5.index t (1 : Fin 2) = 0 :=
  (by decide +kernel : ∀ t : Fin grid0.N, _)

/-- Window 5's block at every point is its whole array. -/
theorem iblk_5 (c : Dev nD) (t : Fin cfg0.N) :
    (iblk m c 5 t : S256x128.Idx → EReal) = (V m c main_v14 : S256x128.Idx → EReal) := by
  obtain ⟨e0, e1⟩ := idx_5 t
  funext y
  show V m c main_v14 (((cfg0.win 5).blk t).view.emb y) = V m c main_v14 y
  refine congrArg (V m c main_v14) (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

theorem idx_6 : ∀ t : Fin cfg0.N, win0_6.index t (0 : Fin 2) = 0 ∧ win0_6.index t (1 : Fin 2) = 0 :=
  (by decide +kernel : ∀ t : Fin grid0.N, _)

/-- Window 6's block at every point is its whole array. -/
theorem iblk_6 (c : Dev nD) (t : Fin cfg0.N) :
    (iblk m c 6 t : S1x128.Idx → EReal) = (V m c main_v21 : S1x128.Idx → EReal) := by
  obtain ⟨e0, e1⟩ := idx_6 t
  funext y
  show V m c main_v21 (((cfg0.win 6).blk t).view.emb y) = V m c main_v21 y
  refine congrArg (V m c main_v21) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem idx_7 : ∀ t : Fin cfg0.N, win0_7.index t (0 : Fin 2) = 0 ∧ win0_7.index t (1 : Fin 2) = 0 :=
  (by decide +kernel : ∀ t : Fin grid0.N, _)

/-- Window 7's block at every point is its whole array. -/
theorem iblk_7 (c : Dev nD) (t : Fin cfg0.N) :
    (iblk m c 7 t : S128x128.Idx → EReal) = (V m c main_v17 : S128x128.Idx → EReal) := by
  obtain ⟨e0, e1⟩ := idx_7 t
  funext y
  show V m c main_v17 (((cfg0.win 7).blk t).view.emb y) = V m c main_v17 y
  refine congrArg (V m c main_v17) (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem idx_8 : ∀ t : Fin cfg0.N, win0_8.index t (0 : Fin 2) = 0 ∧ win0_8.index t (1 : Fin 2) = 0 :=
  (by decide +kernel : ∀ t : Fin grid0.N, _)

/-- Window 8's block at every point is its whole array. -/
theorem iblk_8 (c : Dev nD) (t : Fin cfg0.N) :
    (iblk m c 8 t : S1x128.Idx → EReal) = (V m c main_v22 : S1x128.Idx → EReal) := by
  obtain ⟨e0, e1⟩ := idx_8 t
  funext y
  show V m c main_v22 (((cfg0.win 8).blk t).view.emb y) = V m c main_v22 y
  refine congrArg (V m c main_v22) (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 0's block at point `t` is batch rows `2t, 2t + 1` of the padded embedded tokens. -/
theorem iblk_0 (c : Dev nD) (t : Fin cfg0.N) (r : Fin 2) (s : Fin 1028) (e : Fin 128) :
    (iblk m c 0 t : S2x1028x128.Idx → EReal) (ix3 r s e)
      = (V m c main_v8 : S64x1028x128.Idx → EReal) (ix3 (n0 := 64) (n1 := 1028) (n2 := 128)
          ⟨2 * t.val + r.val, by have := t.isLt; have hN : cfg0.N = 32 := N_0; have := r.isLt; omega⟩ s e) := by
  obtain ⟨e0, e1, e2⟩ := idx_0 t
  show V m c main_v8 (((cfg0.win 0).blk t).view.emb (ix3 r s e)) = V m c main_v8 _
  refine congrArg (V m c main_v8) (funext fun a => Fin.ext ?_)
  match a with
  | ⟨0, _⟩ => show win0_0.index t (0 : Fin 3) * 2 + 1 * r.val = 2 * t.val + r.val; omega
  | ⟨1, _⟩ => show win0_0.index t (1 : Fin 3) * 1028 + 1 * s.val = s.val; omega
  | ⟨2, _⟩ => show win0_0.index t (2 : Fin 3) * 128 + 1 * e.val = e.val; omega

/-- What point `t` writes back is block `t` of `GKm`. -/
theorem flushed_eq (c : Dev nD) (t : Fin cfg0.N) :
    (dats m 0 c).flushed 9 t = ((cfg0.win 9).blk t).view.read (Elt Ideal) (GKm m c) := by
  have hN : cfg0.N = 32 := N_0
  have ht : t.val < 32 := by have := t.isLt; omega
  obtain ⟨e0, e1, e2⟩ := idx_9 t
  show (cfg0.win 9).cut (grid0.coords t) ((dats m 0 c).after 9 t) = _
  rw [after0_9]
  unfold outsAt0
  rw [Piece.out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t)]
  rw [iblk_1 m c t, iblk_2 m c t, iblk_3 m c t, iblk_4 m c t, iblk_5 m c t, iblk_6 m c t, iblk_7 m c t, iblk_8 m c t]
  funext j
  have hj0 : (j 0).val < 2 := (j 0).isLt
  have hj1 : (j 1).val < 1024 := (j 1).isLt
  have hj2 : (j 2).val < 128 := (j 2).isLt
  have hj : j = ix3 (n0 := 2) (n1 := 1024) (n2 := 128) ⟨(j 0).val, hj0⟩ ⟨(j 1).val, hj1⟩ ⟨(j 2).val, hj2⟩ :=
    funext fun a => by match a with | ⟨0, _⟩ => rfl | ⟨1, _⟩ => rfl | ⟨2, _⟩ => rfl
  show Piece.blockOut (F := Ideal) (iblk m c 0 t) (V m c main_v10) (V m c main_v19) (V m c main_v12) (V m c main_v20) (V m c main_v14) (V m c main_v21) (V m c main_v17) (V m c main_v22) j = GKm m c (((cfg0.win 9).blk t).view.emb j)
  refine (congrArg (Piece.blockOut (F := Ideal) (iblk m c 0 t) (V m c main_v10) (V m c main_v19) (V m c main_v12) (V m c main_v20) (V m c main_v14) (V m c main_v21) (V m c main_v17) (V m c main_v22)) hj).trans ?_
  refine (Point.point_eq (V m c main_v8) (V m c main_v10) (V m c main_v19) (V m c main_v12) (V m c main_v20) (V m c main_v14) (V m c main_v21) (V m c main_v17) (V m c main_v22) (iblk m c 0 t) t.val ht (iblk_0 m c t)
    ⟨(j 0).val, hj0⟩ ⟨(j 1).val, hj1⟩ ⟨(j 2).val, hj2⟩).trans ?_
  refine congrArg (GKm m c) (funext fun a => Fin.ext ?_)
  match a with
  | ⟨0, _⟩ => show 2 * t.val + (j 0).val = win0_9.index t (0 : Fin 3) * 2 + 1 * (j 0).val; omega
  | ⟨1, _⟩ => show (j 1).val = win0_9.index t (1 : Fin 3) * 1024 + 1 * (j 1).val; omega
  | ⟨2, _⟩ => show (j 2).val = win0_9.index t (2 : Fin 3) * 128 + 1 * (j 2).val; omega

/-- An index of the output is in point `t`'s block iff each coordinate is in the block's range on its axis. -/
theorem mem_blk (t : Fin cfg0.N) (i : S64x1024x128.Idx) :
    i ∈ ((cfg0.win 9).blk t).view.set ↔ ∀ a : Fin 3, win0_9.index t a * S2x1024x128.size a ≤ (i a).val
      ∧ (i a).val < win0_9.index t a * S2x1024x128.size a + S2x1024x128.size a := by
  show i ∈ ((View.whole main_v23).slice (win0_9.rect t)).set ↔ _
  rw [View.set_slice_whole, Rect.mem_set_unit]
  exact Iff.rfl

/-- Every index of the output is in some point's block: batch row `p` is in the block of point `p / 2`. -/
theorem cover (i : S64x1024x128.Idx) :
    ∃ t : Fin cfg0.N, (cfg0.win 9).flush t = true ∧ i ∈ ((cfg0.win 9).blk t).view.set := by
  have hN : cfg0.N = 32 := N_0
  have hi0 : (i 0).val < 64 := (i 0).isLt
  have hi1 : (i 1).val < 1024 := (i 1).isLt
  have hi2 : (i 2).val < 128 := (i 2).isLt
  obtain ⟨t, htv⟩ : ∃ t : Fin cfg0.N, t.val = (i 0).val / 2 := ⟨⟨(i 0).val / 2, by omega⟩, rfl⟩
  obtain ⟨e0, e1, e2⟩ := idx_9 t
  refine ⟨t, flush0_9 t, ?_⟩
  rw [mem_blk]
  intro a
  match a with
  | ⟨0, _⟩ =>
    show win0_9.index t (0 : Fin 3) * 2 ≤ (i 0).val ∧ (i 0).val < win0_9.index t (0 : Fin 3) * 2 + 2
    omega
  | ⟨1, _⟩ =>
    show win0_9.index t (1 : Fin 3) * 1024 ≤ (i 1).val ∧ (i 1).val < win0_9.index t (1 : Fin 3) * 1024 + 1024
    omega
  | ⟨2, _⟩ =>
    show win0_9.index t (2 : Fin 3) * 128 ≤ (i 2).val ∧ (i 2).val < win0_9.index t (2 : Fin 3) * 128 + 128
    omega

/-- The output array after the region is `GKm`. -/
theorem final (c : Dev nD) : (dats m 0 c).arrAt 9 cfg0.N = GKm m c :=
  (dats m 0 c).arrAt_eq_of_cover 9 (GKm m c) (fun t _ => flushed_eq m c t) (cover)

/-- The program's result: columns `0…37` of the output array. -/
theorem tail_eq (c : Dev nD) :
    Pipeline.afterTail₀ cfgs (dats m) 0 (V0 m) [hostOps1] c main_v24
      = extractStridedSlice S64x1024x38 ![0, 0, 0] (GKm m c) slices_S64x1024x128_S64x1024x38_0_0_0 := by
  unfold Pipeline.afterTail₀
  show StableHlo.after hostOps1 _ (Proc.devRef .tc main_v24) = _
  after_results
  have e := Pipeline.withArrays_arr spec0 launch0.win.arr_inj c (V0 m c) (fun w => (dats m 0 c).arrAt w (cfgs 0).N) 9
  exact congrArg (fun X => extractStridedSlice S64x1024x38 ![0, 0, 0] X slices_S64x1024x128_S64x1024x38_0_0_0)
    (e.trans (final m c))

/-- The run, read: the result at the sliced `GKm`, the arguments unchanged. -/
theorem run : θ_run defs (onTc (τ := τ) (main (F := Ideal))) ⟨m, fun _ => 0, ρ⟩ fun r => ∀ c : Dev nD,
      r.2.mem ((c : Thread nD τ).loc main_v24)
        = extractStridedSlice S64x1024x38 ![0, 0, 0] (GKm m c) slices_S64x1024x128_S64x1024x38_0_0_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨
      ((h c).2 main_v24 (Pipeline.mem_restRefs_of main_v24 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Value

end
-- ==== Proof.KernelParams.lean ====
/-
  The parameters the kernel is given, and the columns the program keeps.

  Before the kernel the program transposes the four weight matrices, widens the last one from 38 to 128 columns and
  the last bias from 38 to 128 entries with zeros, and lays each bias out as one row. After the kernel it keeps
  columns `0, …, 37` of the 128-wide result. Column `c` of a dense layer depends only on column `c` of its weights
  and entry `c` of its bias; below column 38 the widened weights are the transposed last matrix and the lengthened
  bias is the last bias. So the kept columns are the perceptron with the original parameters: `Spec.G`. The added
  columns are never read, so nothing is multiplied by the padding.
-/
import proofs.«124656_j6622839570978_2_alg».proof.Proof.KernelHost
import proofs.«124656_j6622839570978_2_alg».proof.Proof.KernelPoint
import Idealize.ShloMosaic.Lib.ValueLayout
import Idealize.ShloMosaic.Lib.Pipeline.Value
import Idealize.ShloMosaic.Lib.KernelVsHost

noncomputable section

namespace Cert.KernelIdeal.Params

open Cert.KernelIdeal Cert.KernelIdeal.Gen Idealize.ShloMosaic Idealize.ShloMosaic.ValueIdx Cert.MlpRows Cert.Spec
open Cert.KernelIdeal.Block Cert.KernelIdeal.HostSide Cert.KernelIdeal.Point

/-- The transposed array is `Spec.tr`: at `(k, n)` it reads the operand at `(n, k)`. -/
theorem transpose_eq_tr {N K : Nat} (W : Mat N K) (h : (⟨2, ![N, K]⟩ : Shape).Transposes [1, 0] ⟨2, ![K, N]⟩) :
    transpose ⟨2, ![K, N]⟩ [1, 0] W h = tr W := by
  funext j
  obtain ⟨k, n, rfl⟩ : ∃ (k : Fin K) (n : Fin N), j = ix2 k n := ⟨j 0, j 1, eq_ix2 j⟩
  exact transpose_ix2_apply W h k n

/-- The one row of a vector laid out as `[1, N]` is the vector. -/
theorem rowv_shapeCast {N : Nat} (b : (⟨1, ![N]⟩ : Shape).Idx → EReal)
    (h : (⟨1, ![N]⟩ : Shape).ShapeCasts ⟨2, ![1, N]⟩) :
    rowv (shapeCast ⟨2, ![1, N]⟩ b h) = vec b :=
  funext fun n => shapeCast_a_1a_apply b h ⟨0, Nat.one_pos⟩ n

/-- Below column 38 the widened last weight matrix is the transposed one: `(k, c) ↦ W₄ (c, k)`. -/
theorem w4K_apply (a8 : (⟨S38x128, .f32⟩ : BufTy).Contents (Elt Ideal)) (k : Fin 128) (c : Fin 38) :
    w4K a8 (ix2 (n0 := 128) (n1 := 128) k ⟨c.val, by have := c.isLt; omega⟩) = tr (N := 38) (K := 128) a8 (ix2 k c) := by
  unfold w4K
  refine (pad_apply_of_inside _ _ _ _ _ pads_S128x38_S128x128_000_0900 h_S_ _ (ix2 (n0 := 128) (n1 := 38) k c)
    (fun a => ?_)).trans ?_
  · match a with
    | ⟨0, _⟩ => show k.val = 0 + k.val * (0 + 1); omega
    | ⟨1, _⟩ => show c.val = 0 + c.val * (0 + 1); omega
  · exact transpose_ix2_apply (a := 38) (b := 128) a8 transposes_S38x128_S128x38_1_0 k c

/-- Below entry 38 the lengthened last bias is the last bias. -/
theorem b4K_apply (a9 : (⟨S38, .f32⟩ : BufTy).Contents (Elt Ideal)) (c : Fin 38) :
    b4K a9 (ix1 (n := 128) ⟨c.val, by have := c.isLt; omega⟩) = a9 (ix1 c) := by
  unfold b4K
  refine pad_apply_of_inside _ _ _ _ _ pads_S38_S128_0900 h_S_ _ (ix1 (n := 38) c) (fun a => ?_)
  match a with
  | ⟨0, _⟩ => show c.val = 0 + c.val * (0 + 1); omega

/-- The kept columns of the kernel's padded output are the specification at the original parameters. -/
theorem slice_GK (a0 : (⟨S64x1024, .i32⟩ : BufTy).Contents (Elt Ideal)) (a1 : (⟨S38x128, .f32⟩ : BufTy).Contents (Elt Ideal))
    (a2 : (⟨S512x640, .f32⟩ : BufTy).Contents (Elt Ideal)) (a3 : (⟨S512, .f32⟩ : BufTy).Contents (Elt Ideal))
    (a4 : (⟨S256x512, .f32⟩ : BufTy).Contents (Elt Ideal)) (a5 : (⟨S256, .f32⟩ : BufTy).Contents (Elt Ideal))
    (a6 : (⟨S128x256, .f32⟩ : BufTy).Contents (Elt Ideal)) (a7 : (⟨S128, .f32⟩ : BufTy).Contents (Elt Ideal))
    (a8 : (⟨S38x128, .f32⟩ : BufTy).Contents (Elt Ideal)) (a9 : (⟨S38, .f32⟩ : BufTy).Contents (Elt Ideal))
    (hs : S64x1024x128.Slices ![0, 0, 0] S64x1024x38) :
    extractStridedSlice S64x1024x38 ![0, 0, 0]
      (Cert.KernelIdeal.Point.GK (Cert.KernelIdeal.HostSide.xpK a0 a1)
        (transpose S640x512 [1, 0] a2 transposes_S512x640_S640x512_1_0) (shapeCast S1x512 a3 shapeCasts_S512_S1x512)
        (transpose S512x256 [1, 0] a4 transposes_S256x512_S512x256_1_0) (shapeCast S1x256 a5 shapeCasts_S256_S1x256)
        (transpose S256x128 [1, 0] a6 transposes_S128x256_S256x128_1_0) (shapeCast S1x128 a7 shapeCasts_S128_S1x128)
        (Cert.KernelIdeal.HostSide.w4K a8) (shapeCast S1x128 (Cert.KernelIdeal.HostSide.b4K a9) shapeCasts_S128_S1x128)) hs
      = Cert.Spec.G (Cert.KernelIdeal.HostSide.xpK a0 a1) a2 a3 a4 a5 a6 a7 a8 a9 := by
  funext y
  obtain ⟨p, s, v, rfl⟩ : ∃ (p : Fin 64) (s : Fin 1024) (v : Fin 38), y = ix3 p s v := ⟨y 0, y 1, y 2, eq_ix3 y⟩
  have hv : v.val < 38 := v.isLt
  -- the slice at `(p, s, v)` reads the padded output at `(p, s, v)`
  refine (extractStridedSlice_apply ![0, 0, 0] _ hs (ix3 p s v)
    (ix3 (n0 := 64) (n1 := 1024) (n2 := 128) p s ⟨v.val, by omega⟩) (fun a => ?_)).trans ?_
  · match a with
    | ⟨0, _⟩ => show p.val = 0 + p.val; omega
    | ⟨1, _⟩ => show s.val = 0 + s.val; omega
    | ⟨2, _⟩ => show v.val = 0 + v.val; omega
  have e1 : transpose S640x512 [1, 0] a2 transposes_S512x640_S640x512_1_0 = tr (N := 512) (K := 640) a2 :=
    transpose_eq_tr (N := 512) (K := 640) a2 _
  have e2 : transpose S512x256 [1, 0] a4 transposes_S256x512_S512x256_1_0 = tr (N := 256) (K := 512) a4 :=
    transpose_eq_tr (N := 256) (K := 512) a4 _
  have e3 : transpose S256x128 [1, 0] a6 transposes_S128x256_S256x128_1_0 = tr (N := 128) (K := 256) a6 :=
    transpose_eq_tr (N := 128) (K := 256) a6 _
  have f1 : rowv (N := 512) (shapeCast S1x512 a3 shapeCasts_S512_S1x512) = vec (N := 512) a3 := rowv_shapeCast (N := 512) a3 _
  have f2 : rowv (N := 256) (shapeCast S1x256 a5 shapeCasts_S256_S1x256) = vec (N := 256) a5 := rowv_shapeCast (N := 256) a5 _
  have f3 : rowv (N := 128) (shapeCast S1x128 a7 shapeCasts_S128_S1x128) = vec (N := 128) a7 := rowv_shapeCast (N := 128) a7 _
  have f4 : rowv (N := 128) (shapeCast S1x128 (b4K a9) shapeCasts_S128_S1x128) = vec (N := 128) (b4K a9) :=
    rowv_shapeCast (N := 128) (b4K a9) _
  rw [G_apply]
  unfold GK
  rw [e1, e2, e3, f1, f2, f3, f4]
  -- column `v < 38` of the last layer reads column `v` of the widened weights and entry `v` of the lengthened bias
  exact (mlp_cols (ctx (xpK a0 a1)) (tr (N := 512) (K := 640) a2) (vec (N := 512) a3) (tr (N := 256) (K := 512) a4)
    (vec (N := 256) a5) (tr (N := 128) (K := 256) a6) (vec (N := 128) a7) (tr (N := 38) (K := 128) a8) (vec (N := 38) a9)
    (w4K a8) (vec (N := 128) (b4K a9)) (fun c : Fin 38 => (⟨c.val, by have := c.isLt; omega⟩ : Fin 128))
    (fun k c => (w4K_apply a8 k c).symm) (fun c => (b4K_apply a9 c).symm) (rowOf p s) v).symm

end Cert.KernelIdeal.Params

end
-- ==== Proof.KernelResult.lean ====
/-
  The kernel program's result as a function of its arguments.

  The output array after the region is the whole-array perceptron `GKm` of the arrays the region was given
  (`Value.final`); those arrays are the padded embedded tokens, the transposed weights, the biases laid out as rows
  and the zero-widened last layer (`HostSide.V_…`); and columns `0…37` of that array are `Spec.G` of the original
  parameters, since a column of a dense layer reads only its own column of the weights (`Params.slice_GK`).
-/
import proofs.«124656_j6622839570978_2_alg».proof.Proof.KernelValue
import proofs.«124656_j6622839570978_2_alg».proof.Proof.KernelParams

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ)

/-- Columns `0…37` of the output array are `Spec.G` of the padded embedded tokens and the eight parameters. -/
theorem result_eq (c : Dev nD) :
    extractStridedSlice S64x1024x38 ![0, 0, 0] (Value.GKm m c) slices_S64x1024x128_S64x1024x38_0_0_0
      = Cert.Spec.G (HostSide.xpK (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Value.GKm
  rw [HostSide.V_v8 m c, HostSide.V_v10 m c, HostSide.V_v19 m c, HostSide.V_v12 m c, HostSide.V_v20 m c,
    HostSide.V_v14 m c, HostSide.V_v21 m c, HostSide.V_v17 m c, HostSide.V_v22 m c]
  exact Params.slice_GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _

end Cert.KernelIdeal.Result

end
-- ==== Proof.RefIsSpec.lean ====
/-
  The reference program computes the specification.

  The reference embeds the tokens, pads the sequence axis by two on each side, lays five shifted windows of the
  padded array side by side, flattens (batch row, position) into one row axis, and applies four dense layers
  `x · Wᵀ + b` with the maximum with zero after the first three. Read entry by entry this is `Spec.G` of the
  padded array: the flattened row `1024 · p + s` holds, at entry `k`, the padded array at
  `(p, s + k / 128, k % 128)`, and each dense layer is a sum over the contraction index of products, plus the bias.
-/
import proofs.«124656_j6622839570978_2_alg».proof.Proof.Gen.ReferenceIdeal.Read
import proofs.«124656_j6622839570978_2_alg».proof.Proof.Spec
import Idealize.ShloMosaic.Lib.Pipeline.Value
import Idealize.ShloMosaic.Lib.ValueIdx
import Idealize.ShloMosaic.PureOps.Ideal.Laws

noncomputable section

open scoped BigOperators

namespace Cert.RefIsSpec

open Cert.ReferenceIdeal Cert.ReferenceIdeal.Gen Cert.ReferenceIdeal.Read Idealize.ShloMosaic Idealize.ShloMosaic.ValueIdx
open Idealize.ShloMosaic.PlainProduct Cert.MlpRows Cert.Spec

/-! ## One dense layer from its entries -/

/-- An array whose entry `(r, n)` is `∑ₖ x (r, k) · wt (k, n) + bb (r, n)`, where `wt` is the transpose of `w` and
    every row of `bb` is `b`, is the dense layer of `x` with weights `wᵀ` and bias `b`. -/
theorem dense_of_entries {M K N : Nat} (x : Mat M K) (w : Mat N K) (b : (⟨1, ![N]⟩ : Shape).Idx → EReal)
    (y : Mat M N) (wt : Mat K N) (bb : Mat M N)
    (hwt : ∀ (k : Fin K) (n : Fin N), wt (ix2 k n) = w (ix2 n k))
    (hbb : ∀ (r : Fin M) (n : Fin N), bb (ix2 r n) = b (ix1 n))
    (hy : ∀ (r : Fin M) (n : Fin N), y (ix2 r n) = (∑ k : Fin K, x (ix2 r k) * wt (ix2 k n)) + bb (ix2 r n)) :
    y = dense x (tr w) (vec b) := by
  funext i
  obtain ⟨r, n, rfl⟩ : ∃ (r : Fin M) (n : Fin N), i = ix2 r n := ⟨i 0, i 1, eq_ix2 i⟩
  rw [hy r n, hbb r n]
  show _ = (∑ k : Fin K, x (ix2 r k) * tr w (ix2 k n)) + b (ix1 n)
  exact congrArg (· + b (ix1 n)) (Finset.sum_congr rfl fun k _ => by rw [hwt k n]; rfl)

/-- The entrywise maximum with an array that is the float zero everywhere is `relu`. -/
theorem relu_of_entries {M N : Nat} (x y z : Mat M N) (hz : ∀ i, z i = zeroW) (hy : ∀ i, y i = max (x i) (z i)) :
    y = relu x := by
  funext i
  rw [hy i, hz i]; rfl

/-! ## The four layers of the reference -/

section Layers

variable (a0 : (⟨S64x1024, .i32⟩ : BufTy).Contents (Elt Ideal)) (a1 : (⟨S38x128, .f32⟩ : BufTy).Contents (Elt Ideal))
  (a2 : (⟨S512x640, .f32⟩ : BufTy).Contents (Elt Ideal)) (a3 : (⟨S512, .f32⟩ : BufTy).Contents (Elt Ideal))
  (a4 : (⟨S256x512, .f32⟩ : BufTy).Contents (Elt Ideal)) (a5 : (⟨S256, .f32⟩ : BufTy).Contents (Elt Ideal))
  (a6 : (⟨S128x256, .f32⟩ : BufTy).Contents (Elt Ideal)) (a7 : (⟨S128, .f32⟩ : BufTy).Contents (Elt Ideal))
  (a8 : (⟨S38x128, .f32⟩ : BufTy).Contents (Elt Ideal)) (a9 : (⟨S38, .f32⟩ : BufTy).Contents (Elt Ideal))

/-- Layer 1 before its maximum: the previous stage times `W1ᵀ`, plus `b1`. -/
theorem layer1_dense :
    val_main_v19 (F := Ideal) a0 a1 a2 a3
      = dense (M := 65536) (K := 640) (N := 512) (val_main_v14 (F := Ideal) a0 a1) (tr a2) (vec a3) := by
  refine dense_of_entries (M := 65536) (K := 640) (N := 512) (val_main_v14 (F := Ideal) a0 a1) a2 a3 _
    (val_main_v15 (F := Ideal) a2) (val_main_v18 (F := Ideal) a3) (fun k n => ?_) (fun r n => ?_) (fun r n => ?_)
  · exact (val_main_v15_apply a2 (ix2 k n)).trans
      (congrArg a2 (funext fun a => by match a with | ⟨0, _⟩ => rfl | ⟨1, _⟩ => rfl))
  · exact (val_main_v18_apply a3 (ix2 r n)).trans ((val_main_v17_apply a3 _).trans
      (congrArg a3 (funext fun a => by match a with | ⟨0, _⟩ => rfl)))
  · refine congrArg (· + val_main_v18 (F := Ideal) a3 (ix2 r n)) ((val_main_v16_apply a0 a1 a2 (ix2 r n)).trans
      (Finset.sum_congr rfl fun k _ => congrArg₂ (fun u v => val_main_v14 (F := Ideal) a0 a1 u * val_main_v15 (F := Ideal) a2 v) ?_ ?_))
    · exact funext fun a => by match a with | ⟨0, _⟩ => rfl | ⟨1, _⟩ => rfl
    · exact funext fun a => by match a with | ⟨0, _⟩ => rfl | ⟨1, _⟩ => rfl

/-- Layer 1: `relu` of its dense layer. -/
theorem layer1 :
    val_main_v20 (F := Ideal) a0 a1 a2 a3
      = relu (dense (M := 65536) (K := 640) (N := 512) (val_main_v14 (F := Ideal) a0 a1) (tr a2) (vec a3)) := by
  rw [← layer1_dense]
  exact relu_of_entries (M := 65536) (N := 512) (val_main_v19 (F := Ideal) a0 a1 a2 a3) _ (val_main_call1_v0 (F := Ideal))
    (fun i => (val_main_call1_v0_apply i).trans rfl) (fun i => rfl)

/-- Layer 2 before its maximum: the previous stage times `W2ᵀ`, plus `b2`. -/
theorem layer2_dense :
    val_main_v25 (F := Ideal) a0 a1 a2 a3 a4 a5
      = dense (M := 65536) (K := 512) (N := 256) (val_main_v20 (F := Ideal) a0 a1 a2 a3) (tr a4) (vec a5) := by
  refine dense_of_entries (M := 65536) (K := 512) (N := 256) (val_main_v20 (F := Ideal) a0 a1 a2 a3) a4 a5 _
    (val_main_v21 (F := Ideal) a4) (val_main_v24 (F := Ideal) a5) (fun k n => ?_) (fun r n => ?_) (fun r n => ?_)
  · exact (val_main_v21_apply a4 (ix2 k n)).trans
      (congrArg a4 (funext fun a => by match a with | ⟨0, _⟩ => rfl | ⟨1, _⟩ => rfl))
  · exact (val_main_v24_apply a5 (ix2 r n)).trans ((val_main_v23_apply a5 _).trans
      (congrArg a5 (funext fun a => by match a with | ⟨0, _⟩ => rfl)))
  · refine congrArg (· + val_main_v24 (F := Ideal) a5 (ix2 r n)) ((val_main_v22_apply a0 a1 a2 a3 a4 (ix2 r n)).trans
      (Finset.sum_congr rfl fun k _ => congrArg₂ (fun u v => val_main_v20 (F := Ideal) a0 a1 a2 a3 u * val_main_v21 (F := Ideal) a4 v) ?_ ?_))
    · exact funext fun a => by match a with | ⟨0, _⟩ => rfl | ⟨1, _⟩ => rfl
    · exact funext fun a => by match a with | ⟨0, _⟩ => rfl | ⟨1, _⟩ => rfl

/-- Layer 2: `relu` of its dense layer. -/
theorem layer2 :
    val_main_v26 (F := Ideal) a0 a1 a2 a3 a4 a5
      = relu (dense (M := 65536) (K := 512) (N := 256) (val_main_v20 (F := Ideal) a0 a1 a2 a3) (tr a4) (vec a5)) := by
  rw [← layer2_dense]
  exact relu_of_entries (M := 65536) (N := 256) (val_main_v25 (F := Ideal) a0 a1 a2 a3 a4 a5) _ (val_main_call2_v0 (F := Ideal))
    (fun i => (val_main_call2_v0_apply i).trans rfl) (fun i => rfl)

/-- Layer 3 before its maximum: the previous stage times `W3ᵀ`, plus `b3`. -/
theorem layer3_dense :
    val_main_v31 (F := Ideal) a0 a1 a2 a3 a4 a5 a6 a7
      = dense (M := 65536) (K := 256) (N := 128) (val_main_v26 (F := Ideal) a0 a1 a2 a3 a4 a5) (tr a6) (vec a7) := by
  refine dense_of_entries (M := 65536) (K := 256) (N := 128) (val_main_v26 (F := Ideal) a0 a1 a2 a3 a4 a5) a6 a7 _
    (val_main_v27 (F := Ideal) a6) (val_main_v30 (F := Ideal) a7) (fun k n => ?_) (fun r n => ?_) (fun r n => ?_)
  · exact (val_main_v27_apply a6 (ix2 k n)).trans
      (congrArg a6 (funext fun a => by match a with | ⟨0, _⟩ => rfl | ⟨1, _⟩ => rfl))
  · exact (val_main_v30_apply a7 (ix2 r n)).trans ((val_main_v29_apply a7 _).trans
      (congrArg a7 (funext fun a => by match a with | ⟨0, _⟩ => rfl)))
  · refine congrArg (· + val_main_v30 (F := Ideal) a7 (ix2 r n)) ((val_main_v28_apply a0 a1 a2 a3 a4 a5 a6 (ix2 r n)).trans
      (Finset.sum_congr rfl fun k _ => congrArg₂ (fun u v => val_main_v26 (F := Ideal) a0 a1 a2 a3 a4 a5 u * val_main_v27 (F := Ideal) a6 v) ?_ ?_))
    · exact funext fun a => by match a with | ⟨0, _⟩ => rfl | ⟨1, _⟩ => rfl
    · exact funext fun a => by match a with | ⟨0, _⟩ => rfl | ⟨1, _⟩ => rfl

/-- Layer 3: `relu` of its dense layer. -/
theorem layer3 :
    val_main_v32 (F := Ideal) a0 a1 a2 a3 a4 a5 a6 a7
      = relu (dense (M := 65536) (K := 256) (N := 128) (val_main_v26 (F := Ideal) a0 a1 a2 a3 a4 a5) (tr a6) (vec a7)) := by
  rw [← layer3_dense]
  exact relu_of_entries (M := 65536) (N := 128) (val_main_v31 (F := Ideal) a0 a1 a2 a3 a4 a5 a6 a7) _ (val_main_call3_v0 (F := Ideal))
    (fun i => (val_main_call3_v0_apply i).trans rfl) (fun i => rfl)

/-- Layer 4, which has no maximum after it: the previous stage times `W4ᵀ`, plus `b4`. -/
theorem layer4_dense :
    val_main_v37 (F := Ideal) a0 a1 a2 a3 a4 a5 a6 a7 a8 a9
      = dense (M := 65536) (K := 128) (N := 38) (val_main_v32 (F := Ideal) a0 a1 a2 a3 a4 a5 a6 a7) (tr a8) (vec a9) := by
  refine dense_of_entries (M := 65536) (K := 128) (N := 38) (val_main_v32 (F := Ideal) a0 a1 a2 a3 a4 a5 a6 a7) a8 a9 _
    (val_main_v33 (F := Ideal) a8) (val_main_v36 (F := Ideal) a9) (fun k n => ?_) (fun r n => ?_) (fun r n => ?_)
  · exact (val_main_v33_apply a8 (ix2 k n)).trans
      (congrArg a8 (funext fun a => by match a with | ⟨0, _⟩ => rfl | ⟨1, _⟩ => rfl))
  · exact (val_main_v36_apply a9 (ix2 r n)).trans ((val_main_v35_apply a9 _).trans
      (congrArg a9 (funext fun a => by match a with | ⟨0, _⟩ => rfl)))
  · refine congrArg (· + val_main_v36 (F := Ideal) a9 (ix2 r n)) ((val_main_v34_apply a0 a1 a2 a3 a4 a5 a6 a7 a8 (ix2 r n)).trans
      (Finset.sum_congr rfl fun k _ => congrArg₂ (fun u v => val_main_v32 (F := Ideal) a0 a1 a2 a3 a4 a5 a6 a7 u * val_main_v33 (F := Ideal) a8 v) ?_ ?_))
    · exact funext fun a => by match a with | ⟨0, _⟩ => rfl | ⟨1, _⟩ => rfl
    · exact funext fun a => by match a with | ⟨0, _⟩ => rfl | ⟨1, _⟩ => rfl

/-- The four layers together: the last stage before the final reshape is the perceptron of the flattened context rows. -/
theorem layers :
    val_main_v37 (F := Ideal) a0 a1 a2 a3 a4 a5 a6 a7 a8 a9
      = mlp (M := 65536) (K := 640) (K1 := 512) (K2 := 256) (K3 := 128) (N := 38) (val_main_v14 (F := Ideal) a0 a1)
          (tr a2) (vec a3) (tr a4) (vec a5) (tr a6) (vec a7) (tr a8) (vec a9) := by
  rw [layer4_dense, layer3, layer2, layer1]
  rfl

end Layers

/-! ## The flattened context rows -/

section Context

variable (a0 : (⟨S64x1024, .i32⟩ : BufTy).Contents (Elt Ideal)) (a1 : (⟨S38x128, .f32⟩ : BufTy).Contents (Elt Ideal))

/-- The five windows side by side, read at `(p, s, c)`: window `c / 128` at feature `c % 128`, which is the padded
    array at `(p, s + c / 128, c % 128)`. The window is found from the span `128 · q ≤ c < 128 · (q + 1)` that holds
    `c`; window `q` reads the padded array `q` positions further on. -/
theorem windows_read (p : Fin 64) (s : Fin 1024) (c : Fin 640) :
    val_main_v13 (F := Ideal) a0 a1 (ix3 p s c)
      = val_main_v7 (F := Ideal) a0 a1 (ix3 (n0 := 64) (n1 := 1028) (n2 := 128) p
          ⟨s.val + c.val / 128, by have := s.isLt; have := c.isLt; omega⟩ ⟨c.val % 128, by omega⟩) := by
  have hs : s.val < 1024 := s.isLt
  have hc : c.val < 640 := c.isLt
  unfold val_main_v13
  rcases (by omega : c.val / 128 = 0 ∨ c.val / 128 = 1 ∨ c.val / 128 = 2 ∨ c.val / 128 = 3 ∨ c.val / 128 = 4)
    with h | h | h | h | h
  · refine (concatenate_apply_piece (t := S64x1024x640) 2 _ _ (ix3 p s c) 0 (by show 0 < 5; omega) S64x1024x128
        (val_main_v8 (F := Ideal) a0 a1) rfl rfl 0 rfl
        (ix3 (n0 := 64) (n1 := 1024) (n2 := 128) p s ⟨c.val - 0, by omega⟩) (fun b hb => ?_) ?_).trans ?_
    · match b, hb with
      | ⟨0, _⟩, _ => rfl
      | ⟨1, _⟩, _ => rfl
      | ⟨2, _⟩, hb => exact absurd (Fin.ext rfl) hb
    · show 0 + (c.val - 0) = c.val
      omega
    · refine (val_main_v8_apply a0 a1 _).trans (congrArg (val_main_v7 (F := Ideal) a0 a1) (funext fun a => Fin.ext ?_))
      match a with
      | ⟨0, _⟩ => rfl
      | ⟨1, _⟩ => show s.val = s.val + c.val / 128; omega
      | ⟨2, _⟩ => show c.val - 0 = c.val % 128; omega
  · refine (concatenate_apply_piece (t := S64x1024x640) 2 _ _ (ix3 p s c) 1 (by show 1 < 5; omega) S64x1024x128
        (val_main_v9 (F := Ideal) a0 a1) rfl rfl 128 rfl
        (ix3 (n0 := 64) (n1 := 1024) (n2 := 128) p s ⟨c.val - 128, by omega⟩) (fun b hb => ?_) ?_).trans ?_
    · match b, hb with
      | ⟨0, _⟩, _ => rfl
      | ⟨1, _⟩, _ => rfl
      | ⟨2, _⟩, hb => exact absurd (Fin.ext rfl) hb
    · show 128 + (c.val - 128) = c.val
      omega
    · refine (val_main_v9_apply a0 a1 _).trans (congrArg (val_main_v7 (F := Ideal) a0 a1) (funext fun a => Fin.ext ?_))
      match a with
      | ⟨0, _⟩ => rfl
      | ⟨1, _⟩ => show 1 + s.val = s.val + c.val / 128; omega
      | ⟨2, _⟩ => show c.val - 128 = c.val % 128; omega
  · refine (concatenate_apply_piece (t := S64x1024x640) 2 _ _ (ix3 p s c) 2 (by show 2 < 5; omega) S64x1024x128
        (val_main_v10 (F := Ideal) a0 a1) rfl rfl 256 rfl
        (ix3 (n0 := 64) (n1 := 1024) (n2 := 128) p s ⟨c.val - 256, by omega⟩) (fun b hb => ?_) ?_).trans ?_
    · match b, hb with
      | ⟨0, _⟩, _ => rfl
      | ⟨1, _⟩, _ => rfl
      | ⟨2, _⟩, hb => exact absurd (Fin.ext rfl) hb
    · show 256 + (c.val - 256) = c.val
      omega
    · refine (val_main_v10_apply a0 a1 _).trans (congrArg (val_main_v7 (F := Ideal) a0 a1) (funext fun a => Fin.ext ?_))
      match a with
      | ⟨0, _⟩ => rfl
      | ⟨1, _⟩ => show 2 + s.val = s.val + c.val / 128; omega
      | ⟨2, _⟩ => show c.val - 256 = c.val % 128; omega
  · refine (concatenate_apply_piece (t := S64x1024x640) 2 _ _ (ix3 p s c) 3 (by show 3 < 5; omega) S64x1024x128
        (val_main_v11 (F := Ideal) a0 a1) rfl rfl 384 rfl
        (ix3 (n0 := 64) (n1 := 1024) (n2 := 128) p s ⟨c.val - 384, by omega⟩) (fun b hb => ?_) ?_).trans ?_
    · match b, hb with
      | ⟨0, _⟩, _ => rfl
      | ⟨1, _⟩, _ => rfl
      | ⟨2, _⟩, hb => exact absurd (Fin.ext rfl) hb
    · show 384 + (c.val - 384) = c.val
      omega
    · refine (val_main_v11_apply a0 a1 _).trans (congrArg (val_main_v7 (F := Ideal) a0 a1) (funext fun a => Fin.ext ?_))
      match a with
      | ⟨0, _⟩ => rfl
      | ⟨1, _⟩ => show 3 + s.val = s.val + c.val / 128; omega
      | ⟨2, _⟩ => show c.val - 384 = c.val % 128; omega
  · refine (concatenate_apply_piece (t := S64x1024x640) 2 _ _ (ix3 p s c) 4 (by show 4 < 5; omega) S64x1024x128
        (val_main_v12 (F := Ideal) a0 a1) rfl rfl 512 rfl
        (ix3 (n0 := 64) (n1 := 1024) (n2 := 128) p s ⟨c.val - 512, by omega⟩) (fun b hb => ?_) ?_).trans ?_
    · match b, hb with
      | ⟨0, _⟩, _ => rfl
      | ⟨1, _⟩, _ => rfl
      | ⟨2, _⟩, hb => exact absurd (Fin.ext rfl) hb
    · show 512 + (c.val - 512) = c.val
      omega
    · refine (val_main_v12_apply a0 a1 _).trans (congrArg (val_main_v7 (F := Ideal) a0 a1) (funext fun a => Fin.ext ?_))
      match a with
      | ⟨0, _⟩ => rfl
      | ⟨1, _⟩ => show 4 + s.val = s.val + c.val / 128; omega
      | ⟨2, _⟩ => show c.val - 512 = c.val % 128; omega

/-- Row `R` of the flattened array, entry `k`: the padded array at `(R / 1024, R % 1024 + k / 128, k % 128)`. -/
theorem context_rows : val_main_v14 (F := Ideal) a0 a1 = ctx (val_main_v7 (F := Ideal) a0 a1) := by
  funext i
  obtain ⟨R, k, rfl⟩ : ∃ (R : Fin 65536) (k : Fin 640), i = ix2 R k := ⟨i 0, i 1, eq_ix2 i⟩
  have hR : R.val < 65536 := R.isLt
  have hk : k.val < 640 := k.isLt
  have e : idx_main_v14 (ix2 R k)
      = ix3 (n0 := 64) (n1 := 1024) (n2 := 640) ⟨R.val / 1024, by omega⟩ ⟨R.val % 1024, by omega⟩ k :=
    funext fun a => Fin.ext (by
      match a with
      | ⟨0, _⟩ => show (R.val * 640 + k.val) / 655360 = R.val / 1024; omega
      | ⟨1, _⟩ => show (R.val * 640 + k.val) / 640 % 1024 = R.val % 1024; omega
      | ⟨2, _⟩ => show (R.val * 640 + k.val) % 640 = k.val; omega)
  exact (val_main_v14_apply a0 a1 (ix2 R k)).trans
    ((congrArg (val_main_v13 (F := Ideal) a0 a1) e).trans ((windows_read a0 a1 _ _ k).trans rfl))

end Context

/-! ## The reference is the specification -/

theorem ref_eq (a0 : (⟨S64x1024, .i32⟩ : BufTy).Contents (Elt Ideal)) (a1 : (⟨S38x128, .f32⟩ : BufTy).Contents (Elt Ideal))
    (a2 : (⟨S512x640, .f32⟩ : BufTy).Contents (Elt Ideal)) (a3 : (⟨S512, .f32⟩ : BufTy).Contents (Elt Ideal))
    (a4 : (⟨S256x512, .f32⟩ : BufTy).Contents (Elt Ideal)) (a5 : (⟨S256, .f32⟩ : BufTy).Contents (Elt Ideal))
    (a6 : (⟨S128x256, .f32⟩ : BufTy).Contents (Elt Ideal)) (a7 : (⟨S128, .f32⟩ : BufTy).Contents (Elt Ideal))
    (a8 : (⟨S38x128, .f32⟩ : BufTy).Contents (Elt Ideal)) (a9 : (⟨S38, .f32⟩ : BufTy).Contents (Elt Ideal)) :
    Cert.ReferenceIdeal.Read.val_main_v38 (F := Ideal) a0 a1 a2 a3 a4 a5 a6 a7 a8 a9
      = Cert.Spec.G (Cert.ReferenceIdeal.Read.val_main_v7 (F := Ideal) a0 a1) a2 a3 a4 a5 a6 a7 a8 a9 := by
  funext y
  obtain ⟨p, s, v, rfl⟩ : ∃ (p : Fin 64) (s : Fin 1024) (v : Fin 38), y = ix3 p s v := ⟨y 0, y 1, y 2, eq_ix3 y⟩
  have hp : p.val < 64 := p.isLt
  have hs : s.val < 1024 := s.isLt
  have hv : v.val < 38 := v.isLt
  -- the final reshape reads the flat row `1024 · p + s` at column `v`
  have e : idx_main_v38 (ix3 p s v) = ix2 (rowOf p s) v :=
    funext fun a => Fin.ext (by
      match a with
      | ⟨0, _⟩ => show ((p.val * 1024 + s.val) * 38 + v.val) / 38 = p.val * 1024 + s.val; omega
      | ⟨1, _⟩ => show ((p.val * 1024 + s.val) * 38 + v.val) % 38 = v.val; omega)
  refine (val_main_v38_apply a0 a1 a2 a3 a4 a5 a6 a7 a8 a9 (ix3 p s v)).trans
    ((congrArg (val_main_v37 (F := Ideal) a0 a1 a2 a3 a4 a5 a6 a7 a8 a9) e).trans ?_)
  rw [layers, context_rows]
  rfl

end Cert.RefIsSpec

end
-- ==== Proof.lean ====
/-
  A sliding-window perceptron over embedded tokens: the kernel program against its plain reference, at the exact
  values.

  Both programs embed 64 × 1024 tokens, pad each sequence with two zero positions at either end, give every
  position the five padded positions around it side by side (a context row of length 640), and apply to each
  context row four dense layers `x · Wᵀ + b` of widths 512, 256, 128, 38 with the maximum with zero after the first
  three. The reference does this on one `[65536, 640]` array. The kernel works on two batch rows at a time (32
  grid points), builds the 2048 context rows of a point in a scratch buffer, and computes a 128-wide last layer
  whose columns 38…127 (zero weights, zero bias) are cut off afterwards.

  Over the extended reals a change of float format is the identity and a matrix product into a zero accumulator
  is the plain sum, so both results are the same function `Spec.G` of the padded embedded tokens and the eight
  parameters. The two facts that join them are that a row of the perceptron's result depends only on the same row
  of its input (so 2048 rows at a time is the same as all 65536 at once) and that a column of a dense layer reads
  only the same column of the weights and entry of the bias (so the widened last layer agrees below column 38). No
  sum is reordered and no entry needs to be finite: the precondition is never opened.

    * the three frames: the two kernel programs' are the generated frame certificates; the reference's is its
      generated run with the result dropped;
    * the idealization rewrote nothing, so there is nothing to preserve;
    * the kernel's result is `Spec.G` (Proof/KernelResult.lean over Proof/KernelValue.lean), the reference's is
      `Spec.G` (Proof/RefIsSpec.lean), and the padded embedded tokens are one and the same term in both programs.
-/
import proofs.«124656_j6622839570978_2_alg».proof.Defs
import proofs.«124656_j6622839570978_2_alg».proof.Proof.Gen.Kernel
import proofs.«124656_j6622839570978_2_alg».proof.Proof.Gen.Kernel.Frame
import proofs.«124656_j6622839570978_2_alg».proof.Proof.Gen.KernelIdeal
import proofs.«124656_j6622839570978_2_alg».proof.Proof.Gen.KernelIdeal.Frame
import proofs.«124656_j6622839570978_2_alg».proof.Proof.Gen.ReferenceIdeal
import proofs.«124656_j6622839570978_2_alg».proof.Proof.Gen.ReferenceIdeal.Run
import proofs.«124656_j6622839570978_2_alg».proof.Proof.Gen.ReferenceIdeal.Read
import proofs.«124656_j6622839570978_2_alg».proof.Proof.Gen.Pre_finite_inputs
import proofs.«124656_j6622839570978_2_alg».proof.Proof.KernelResult
import proofs.«124656_j6622839570978_2_alg».proof.Proof.RefIsSpec
import Idealize.ShloMosaic.Adequacy
import Idealize.ShloMosaic.Init

noncomputable section

namespace Cert.Proof

open Idealize.ShloMosaic Idealize.ShloMosaic.TcCoe Idealize.SL.Sem

/-- The padded embedded tokens are the same operations of the same two arguments in both programs. -/
theorem xp_eq (a0 : (⟨Cert.KernelIdeal.S64x1024, .i32⟩ : BufTy).Contents (Elt Ideal))
    (a1 : (⟨Cert.KernelIdeal.S38x128, .f32⟩ : BufTy).Contents (Elt Ideal)) :
    Cert.KernelIdeal.HostSide.xpK a0 a1 = Cert.ReferenceIdeal.Read.val_main_v7 (F := Ideal) a0 a1 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `Spec.G` of the padded embedded tokens and the eight parameters. -/
theorem algebraic : Cert.algebraic_KernelIdeal_ReferenceIdeal := by
  intro m ρ m' ρ' _ hagree
  refine ⟨fun c => Cert.Spec.G (Cert.KernelIdeal.HostSide.xpK (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Result.result_eq m c), (h c).2⟩)
      (Cert.KernelIdeal.Value.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v38_eq, Cert.RefIsSpec.ref_eq, ← xp_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
